-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S16384x2 : Shape := ⟨2, ![16384, 2]⟩
abbrev S65536x2 : Shape := ⟨2, ![65536, 2]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S65536x2 : S_.BroadcastsInDim S65536x2 (![] : Fin 0 → Fin S65536x2.rank)
  reducesTo_S65536x2_S_d0_1 : S65536x2.ReducesTo [0, 1] S_

variable [Facts]

def fn_part1 {F : FTy → Type} [FloatOps F] (main_arg6 : FVec F S65536x2 .f32) (main_arg7 : FVec F S65536x2 .f32) (main_v13 : IVec S_ 1) (main_v16 : IVec S16384x2 1) : IVec S_ 1 :=
  let main_c_5 : IVec S_ 1 := constantI S_ 1 1#1
  let main_v17 : IVec S_ 1 := (fun x v => Host.reduce IntOp.andi x v reducesTo_S16384x2_S_d0_1 h_S_) main_v16 main_c_5
  let main_v18 : IVec S_ 1 := andi main_v13 main_v17
  let main_v19 : FVec F S65536x2 .f32 := Host.absf main_arg6
  let main_cst_6 : FVec F S_ .f32 := constant S_ .f32 0x7F800000#32
  let main_v20 : FVec F S65536x2 .f32 := broadcastInDim S65536x2 ![] bcast_S_S65536x2 main_cst_6
  let main_v21 : IVec S65536x2 1 := cmpf .olt main_v19 main_v20
  let main_c_7 : IVec S_ 1 := constantI S_ 1 1#1
  let main_v22 : IVec S_ 1 := (fun x v => Host.reduce IntOp.andi x v reducesTo_S65536x2_S_d0_1 h_S_) main_v21 main_c_7
  let main_v23 : IVec S_ 1 := andi main_v18 main_v22
  let main_v24 : FVec F S65536x2 .f32 := Host.absf main_arg7
  let main_cst_8 : FVec F S_ .f32 := constant S_ .f32 0x7F800000#32
  let main_v25 : FVec F S65536x2 .f32 := broadcastInDim S65536x2 ![] bcast_S_S65536x2 main_cst_8
  let main_v26 : IVec S65536x2 1 := cmpf .olt main_v24 main_v25
  let main_c_9 : IVec S_ 1 := constantI S_ 1 1#1
  let main_v27 : IVec S_ 1 := (fun x v => Host.reduce IntOp.andi x v reducesTo_S65536x2_S_d0_1 h_S_) main_v26 main_c_9
  let main_v28 : IVec S_ 1 := andi main_v23 main_v27
  main_v28

def fn {F : FTy → Type} [FloatOps F] (main_arg0 : FVec F S65536 .f32) (main_arg1 : IVec S65536 32) (main_arg2 : IVec S65536 32) (main_arg3 : FVec F S16384x2 .f32) (main_arg4 : FVec F S16384x2 .f32) (main_arg5 : FVec F S16384x2 .f32) (main_arg6 : FVec F S65536x2 .f32) (main_arg7 : FVec F S65536x2 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S16384x2 .f32 := Host.absf main_arg3
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  let main_v9 : FVec F S16384x2 .f32 := Host.absf main_arg4
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S16384x2 .f32 := Host.absf main_arg5
  let main_cst_4 : FVec F S_ .f32 := constant S_ .f32 0x7F800000#32
  let main_v15 : FVec F S16384x2 .f32 := broadcastInDim S16384x2 ![] bcast_S_S16384x2 main_cst_4
  let main_v16 : IVec S16384x2 1 := cmpf .olt main_v14 main_v15
  fn_part1 (F := F) main_arg6 main_arg7 main_v13 main_v16
-- ==== Kernel.lean ====
abbrev S65536 : Shape := ⟨1, ![65536]⟩
abbrev S16384x2 : Shape := ⟨2, ![16384, 2]⟩
abbrev S65536x2 : Shape := ⟨2, ![65536, 2]⟩
abbrev S_ : Shape := ⟨0, ![]⟩
abbrev S2x16384 : Shape := ⟨2, ![2, 16384]⟩
abbrev S1x1 : Shape := ⟨2, ![1, 1]⟩
abbrev S256x2 : Shape := ⟨2, ![256, 2]⟩
abbrev S2x2048 : Shape := ⟨2, ![2, 2048]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩
abbrev S1 : Shape := ⟨1, ![1]⟩
abbrev S65536x1 : Shape := ⟨2, ![65536, 1]⟩

abbrev nBuf : Space → Nat
  | .hbm => 121
  | .vmem => 6
  | .smem => 0
  | _ => 0

abbrev bufTy : (tb : Table) → Fin (tcTables nBuf tb) → BufTy
  | .hbm, ⟨0, _⟩ => ⟨S65536, .f32⟩
  | .hbm, ⟨1, _⟩ => ⟨S65536, .i32⟩
  | .hbm, ⟨2, _⟩ => ⟨S65536, .i32⟩
  | .hbm, ⟨3, _⟩ => ⟨S16384x2, .f32⟩
  | .hbm, ⟨4, _⟩ => ⟨S16384x2, .f32⟩
  | .hbm, ⟨5, _⟩ => ⟨S16384x2, .f32⟩
  | .hbm, ⟨6, _⟩ => ⟨S65536x2, .f32⟩
  | .hbm, ⟨7, _⟩ => ⟨S65536x2, .f32⟩
  | .hbm, ⟨8, _⟩ => ⟨S_, .f32⟩
  | .hbm, ⟨9, _⟩ => ⟨S16384x2, .f32⟩
  | .hbm, ⟨10, _⟩ => ⟨S16384x2, .f32⟩
  | .hbm, ⟨11, _⟩ => ⟨S16384x2, .f32⟩
  | .hbm, ⟨12, _⟩ => ⟨S16384x2, .f32⟩
  | .hbm, ⟨13, _⟩ => ⟨S16384x2, .f32⟩
  | .hbm, ⟨14, _⟩ => ⟨S_, .f32⟩
  | .hbm, ⟨15, _⟩ => ⟨S16384x2, .f32⟩
  | .hbm, ⟨16, _⟩ => ⟨S16384x2, .f32⟩
  | .hbm, ⟨17, _⟩ => ⟨S16384x2, .f32⟩
  | .hbm, ⟨18, _⟩ => ⟨S16384x2, .f32⟩
  | .hbm, ⟨19, _⟩ => ⟨S16384x2, .f32⟩
  | .hbm, ⟨20, _⟩ => ⟨S16384x2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x16384, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S65536x1, .i32⟩
  | .hbm, ⟨38, _⟩ => ⟨S65536x2, .f32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S65536x1, .i32⟩
  | .hbm, ⟨47, _⟩ => ⟨S65536x2, .f32⟩
  | .hbm, ⟨48, _⟩ => ⟨S_, .f32⟩
  | .hbm, ⟨49, _⟩ => ⟨S65536x2, .f32⟩
  | .hbm, ⟨50, _⟩ => ⟨S65536x2, .f32⟩
  | .hbm, ⟨51, _⟩ => ⟨S65536x2, .f32⟩
  | .hbm, ⟨52, _⟩ => ⟨S65536x2, .f32⟩
  | .hbm, ⟨53, _⟩ => ⟨S65536x2, .f32⟩
  | .hbm, ⟨54, _⟩ => ⟨S_, .f32⟩
  | .hbm, ⟨55, _⟩ => ⟨S65536x2, .f32⟩
  | .hbm, ⟨56, _⟩ => ⟨S65536x2, .f32⟩
  | .hbm, ⟨57, _⟩ => ⟨S65536x2, .f32⟩
  | .hbm, ⟨58, _⟩ => ⟨S65536x2, .f32⟩
  | .hbm, ⟨59, _⟩ => ⟨S65536x2, .f32⟩
  | .hbm, ⟨60, _⟩ => ⟨S65536x2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S65536x1, .i32⟩
  | .hbm, ⟨73, _⟩ => ⟨S65536x2, .f32⟩
  | .hbm, ⟨74, _⟩ => ⟨S_, .i32⟩
  | .hbm, ⟨75, _⟩ => ⟨S65536, .i32⟩
  | .hbm, ⟨76, _⟩ => ⟨S65536, .i1⟩
  | .hbm, ⟨77, _⟩ => ⟨S_, .i32⟩
  | .hbm, ⟨78, _⟩ => ⟨S65536, .i32⟩
  | .hbm, ⟨79, _⟩ => ⟨S65536, .i32⟩
  | .hbm, ⟨80, _⟩ => ⟨S65536, .i32⟩
  | .hbm, ⟨81, _⟩ => ⟨S65536x1, .i32⟩
  | .hbm, ⟨82, _⟩ => ⟨S65536x2, .f32⟩
  | .hbm, ⟨83, _⟩ => ⟨S_, .f32⟩
  | .hbm, ⟨84, _⟩ => ⟨S65536x2, .f32⟩
  | .hbm, ⟨85, _⟩ => ⟨S65536x2, .f32⟩
  | .hbm, ⟨86, _⟩ => ⟨S65536x2, .f32⟩
  | .hbm, ⟨87, _⟩ => ⟨S65536x2, .f32⟩
  | .hbm, ⟨88, _⟩ => ⟨S65536x2, .f32⟩
  | .hbm, ⟨89, _⟩ => ⟨S_, .f32⟩
  | .hbm, ⟨90, _⟩ => ⟨S65536x2, .f32⟩
  | .hbm, ⟨91, _⟩ => ⟨S65536x2, .f32⟩
  | .hbm, ⟨92, _⟩ => ⟨S65536x2, .f32⟩
  | .hbm, ⟨93, _⟩ => ⟨S65536x2, .f32⟩
  | .hbm, ⟨94, _⟩ => ⟨S65536x2, .f32⟩
  | .hbm, ⟨95, _⟩ => ⟨S65536x2, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S65536x2, .f32⟩
  | .hbm, ⟨101, _⟩ => ⟨S65536x2, .f32⟩
  | .hbm, ⟨102, _⟩ => ⟨S_, .f32⟩
  | .hbm, ⟨103, _⟩ => ⟨S65536, .f32⟩
  | .hbm, ⟨104, _⟩ => ⟨S_, .f32⟩
  | .hbm, ⟨105, _⟩ => ⟨S65536, .f32⟩
  | .hbm, ⟨106, _⟩ => ⟨S65536, .f32⟩
  | .hbm, ⟨107, _⟩ => ⟨S_, .f32⟩
  | .hbm, ⟨108, _⟩ => ⟨S65536, .f32⟩
  | .hbm, ⟨109, _⟩ => ⟨S65536, .f32⟩
  | .hbm, ⟨110, _⟩ => ⟨S65536, .f32⟩
  | .hbm, ⟨111, _⟩ => ⟨S65536, .f32⟩
  | .hbm, ⟨112, _⟩ => ⟨S65536, .f32⟩
  | .hbm, ⟨113, _⟩ => ⟨S65536, .f32⟩
  | .hbm, ⟨114, _⟩ => ⟨S65536, .f32⟩
  | .hbm, ⟨115, _⟩ => ⟨S65536, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S256x2, .f32⟩
  | .local _ .vmem, ⟨1, _⟩ => ⟨S256x2, .f32⟩
  | .local _ .vmem, ⟨2, _⟩ => ⟨S2x2048, .f32⟩
  | .local _ .vmem, ⟨3, _⟩ => ⟨S2x2048, .f32⟩
  | .local _ .vmem, ⟨4, _⟩ => ⟨S1x1, .f32⟩
  | .local _ .vmem, ⟨5, _⟩ => ⟨S1x1, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_c_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_v75 : Ref sig .tc := ⟨.hbm, 106, rfl⟩
abbrev main_cst_21 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_22 : Ref sig .tc := ⟨.hbm, 116, rfl⟩
abbrev main_v84 : Ref sig .tc := ⟨.hbm, 117, rfl⟩
abbrev main_cst_23 : Ref sig .tc := ⟨.hbm, 118, rfl⟩
abbrev main_v85 : Ref sig .tc := ⟨.hbm, 119, rfl⟩
abbrev main_v86 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg0 : BitVec 32 := BitVec.ofNat 32 (i 0).val
  let c63_i32 : BitVec 32 := 63#32
  let v35 : BitVec 1 := Scalar.cmpi .eq arg0 c63_i32
  let arg1 : BitVec 32 := BitVec.ofNat 32 (i 1).val
  let c7_i32 : BitVec 32 := 7#32
  let v36 : BitVec 1 := Scalar.cmpi .eq arg1 c7_i32
  let v37 : BitVec 1 := Scalar.andi v35 v36
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S_S16384x2 : S_.BroadcastsInDim S16384x2 (![] : Fin 0 → Fin S16384x2.rank)
  reducesTo_S16384x2_S_d0_1 : S16384x2.ReducesTo [0, 1] S_
  h_S_ : 0 < S_.numel
  transposes_S16384x2_S2x16384_1_0 : S16384x2.Transposes [1, 0] S2x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2_S256x1_0_0 : ∀ a, (![0, 0] : Fin 2 → Nat) a + S256x1.size a ≤ S256x2.size a
  h_S256x1 : 0 < S256x1.numel
  shapeCasts_S256x1_S256x1 : S256x1.ShapeCasts S256x1
  inb_S256x2_S256x1_0_1 : ∀ a, (![0, 1] : Fin 2 → Nat) a + S256x1.size a ≤ S256x2.size a
  inb_S2x2048_S1x2048_0_0 : ∀ a, (![0, 0] : Fin 2 → Nat) a + S1x2048.size a ≤ S2x2048.size a
  h_S1x2048 : 0 < S1x2048.numel
  shapeCasts_S1x2048_S1x2048 : S1x2048.ShapeCasts S1x2048
  inb_S2x2048_S1x2048_1_0 : ∀ a, (![1, 0] : Fin 2 → Nat) a + S1x2048.size a ≤ S2x2048.size a
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  bcast_S_S65536 : S_.BroadcastsInDim S65536 (![] : Fin 0 → Fin S65536.rank)
  bcast_S65536_S65536x1_0 : S65536.BroadcastsInDim S65536x1 (![0] : Fin 1 → Fin S65536x1.rank)
  bcast_S_S65536x2 : S_.BroadcastsInDim S65536x2 (![] : Fin 0 → Fin S65536x2.rank)
  reducesTo_S65536x2_S_d0_1 : S65536x2.ReducesTo [0, 1] S_
  reducesTo_S65536x2_S65536_d1 : S65536x2.ReducesTo [1] S65536
  reducesTo_S65536_S_d0 : S65536.ReducesTo [0] S_
  gather_S16384x2_S65536x1_S65536x2_1_0_n_n_0_1_12_wf : GatherDims.WF S16384x2 S65536x1 S65536x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S16384x2.size a
  hwx0_0 : ∀ i : grid0.Coords, EltTy.bits .f32 = 32 ∨ (Rect.block (s := S16384x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x16384.size a
  hwx0_1 : ∀ i : grid0.Coords, EltTy.bits .f32 = 32 ∨ (Rect.block (s := S2x16384) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S16384x2_S65536x1_S65536x2_1_0_n_n_0_1_12 : GatherDims S16384x2 S65536x1 S65536x2 where
  offsetDims := [1]
  collapsedSliceDims := [0]
  operandBatchingDims := []
  startIndicesBatchingDims := []
  startIndexMap := [0]
  indexVectorDim := 1
  sliceSizes := ![1, 2]
  wf := gather_S16384x2_S65536x1_S65536x2_1_0_n_n_0_1_12_wf

abbrev win0_0 : Pipeline.Window sig grid0 :=
  Pipeline.Window.ofSpec (Memref.whole main_v4) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536 : Shape := ⟨1, ![65536]⟩
abbrev S16384x2 : Shape := ⟨2, ![16384, 2]⟩
abbrev S65536x2 : Shape := ⟨2, ![65536, 2]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x16384 : Shape := ⟨2, ![2, 16384]⟩
abbrev S65536x1 : Shape := ⟨2, ![65536, 1]⟩

abbrev nBuf : Space → Nat
  | .hbm => 143
  | .vmem => 0
  | .smem => 0
  | _ => 0

abbrev hbmTy0_0 (i : Nat) : BufTy := match i % 128 with
  | 0 => ⟨S65536, .f32⟩
  | 1 => ⟨S65536, .i32⟩
  | 2 => ⟨S65536, .i32⟩
  | 3 => ⟨S16384x2, .f32⟩
  | 4 => ⟨S16384x2, .f32⟩
  | 5 => ⟨S16384x2, .f32⟩
  | 6 => ⟨S65536x2, .f32⟩
  | 7 => ⟨S65536x2, .f32⟩
  | 8 => ⟨S_, .f32⟩
  | 9 => ⟨S16384x2, .f32⟩
  | 10 => ⟨S16384x2, .f32⟩
  | 11 => ⟨S16384x2, .f32⟩
  | 12 => ⟨S16384x2, .f32⟩
  | 13 => ⟨S16384x2, .f32⟩
  | 14 => ⟨S_, .f32⟩
  | 15 => ⟨S16384x2, .f32⟩
  | 16 => ⟨S16384x2, .f32⟩
  | 17 => ⟨S16384x2, .f32⟩
  | 18 => ⟨S16384x2, .f32⟩
  | 19 => ⟨S16384x2, .f32⟩
  | 20 => ⟨S16384x2, .f32⟩
  | 21 => ⟨S_, .f32⟩
  | 22 => ⟨S_, .f32⟩
  | 23 => ⟨S_, .f32⟩
  | 24 => ⟨S_, .f32⟩
  | 25 => ⟨S16384x2, .f32⟩
  | 26 => ⟨S_, .f32⟩
  | 27 => ⟨S16384, .f32⟩
  | 28 => ⟨S16384x1, .f32⟩
  | 29 => ⟨S1x16384, .f32⟩
  | 30 => ⟨S16384x16384, .f32⟩
  | 31 => ⟨S16384x16384, .f32⟩
  | 32 => ⟨S16384x16384, .f32⟩
  | 33 => ⟨S2x16384, .f32⟩
  | 34 => ⟨S16384x16384, .f32⟩
  | 35 => ⟨S_, .f32⟩
  | 36 => ⟨S16384x16384, .f32⟩
  | 37 => ⟨S16384x16384, .f32⟩
  | 38 => ⟨S16384x16384, .f32⟩
  | 39 => ⟨S_, .f32⟩
  | 40 => ⟨S16384x16384, .f32⟩
  | 41 => ⟨S16384x16384, .f32⟩
  | 42 => ⟨S_, .f32⟩
  | 43 => ⟨S16384x16384, .f32⟩
  | 44 => ⟨S16384x16384, .f32⟩
  | 45 => ⟨S_, .f32⟩
  | 46 => ⟨S16384x16384, .f32⟩
  | 47 => ⟨S16384x16384, .f32⟩
  | 48 => ⟨S_, .f32⟩
  | 49 => ⟨S_, .f32⟩
  | 50 => ⟨S_, .f32⟩
  | 51 => ⟨S_, .f32⟩
  | 52 => ⟨S_, .i32⟩
  | 53 => ⟨S65536, .i32⟩
  | 54 => ⟨S65536, .i1⟩
  | 55 => ⟨S_, .i32⟩
  | 56 => ⟨S65536, .i32⟩
  | 57 => ⟨S65536, .i32⟩
  | 58 => ⟨S65536, .i32⟩
  | 59 => ⟨S65536x1, .i32⟩
  | 60 => ⟨S65536x2, .f32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S65536x1, .i32⟩
  | 69 => ⟨S65536x2, .f32⟩
  | 70 => ⟨S_, .f32⟩
  | 71 => ⟨S65536x2, .f32⟩
  | 72 => ⟨S65536x2, .f32⟩
  | 73 => ⟨S65536x2, .f32⟩
  | 74 => ⟨S65536x2, .f32⟩
  | 75 => ⟨S65536x2, .f32⟩
  | 76 => ⟨S_, .f32⟩
  | 77 => ⟨S65536x2, .f32⟩
  | 78 => ⟨S65536x2, .f32⟩
  | 79 => ⟨S65536x2, .f32⟩
  | 80 => ⟨S65536x2, .f32⟩
  | 81 => ⟨S65536x2, .f32⟩
  | 82 => ⟨S65536x2, .f32⟩
  | 83 => ⟨S_, .f32⟩
  | 84 => ⟨S_, .f32⟩
  | 85 => ⟨S_, .f32⟩
  | 86 => ⟨S_, .f32⟩
  | 87 => ⟨S_, .i32⟩
  | 88 => ⟨S65536, .i32⟩
  | 89 => ⟨S65536, .i1⟩
  | 90 => ⟨S_, .i32⟩
  | 91 => ⟨S65536, .i32⟩
  | 92 => ⟨S65536, .i32⟩
  | 93 => ⟨S65536, .i32⟩
  | 94 => ⟨S65536x1, .i32⟩
  | 95 => ⟨S65536x2, .f32⟩
  | 96 => ⟨S_, .i32⟩
  | 97 => ⟨S65536, .i32⟩
  | 98 => ⟨S65536, .i1⟩
  | 99 => ⟨S_, .i32⟩
  | 100 => ⟨S65536, .i32⟩
  | 101 => ⟨S65536, .i32⟩
  | 102 => ⟨S65536, .i32⟩
  | 103 => ⟨S65536x1, .i32⟩
  | 104 => ⟨S65536x2, .f32⟩
  | 105 => ⟨S_, .f32⟩
  | 106 => ⟨S65536x2, .f32⟩
  | 107 => ⟨S65536x2, .f32⟩
  | 108 => ⟨S65536x2, .f32⟩
  | 109 => ⟨S65536x2, .f32⟩
  | 110 => ⟨S65536x2, .f32⟩
  | 111 => ⟨S_, .f32⟩
  | 112 => ⟨S65536x2, .f32⟩
  | 113 => ⟨S65536x2, .f32⟩
  | 114 => ⟨S65536x2, .f32⟩
  | 115 => ⟨S65536x2, .f32⟩
  | 116 => ⟨S65536x2, .f32⟩
  | 117 => ⟨S65536x2, .f32⟩
  | 118 => ⟨S_, .f32⟩
  | 119 => ⟨S_, .f32⟩
  | 120 => ⟨S_, .f32⟩
  | 121 => ⟨S_, .f32⟩
  | 122 => ⟨S65536x2, .f32⟩
  | 123 => ⟨S65536x2, .f32⟩
  | 124 => ⟨S_, .f32⟩
  | 125 => ⟨S65536, .f32⟩
  | 126 => ⟨S_, .f32⟩
  | 127 => ⟨S65536, .f32⟩
  | _ => ⟨S65536, .f32⟩

abbrev hbmTy0_1 (i : Nat) : BufTy := match i % 128 with
  | 0 => ⟨S65536, .f32⟩
  | 1 => ⟨S_, .f32⟩
  | 2 => ⟨S65536, .f32⟩
  | 3 => ⟨S65536, .f32⟩
  | 4 => ⟨S65536, .f32⟩
  | 5 => ⟨S65536, .f32⟩
  | 6 => ⟨S65536, .f32⟩
  | 7 => ⟨S65536, .f32⟩
  | 8 => ⟨S65536, .f32⟩
  | 9 => ⟨S65536, .f32⟩
  | 10 => ⟨S_, .f32⟩
  | 11 => ⟨S_, .f32⟩
  | 12 => ⟨S_, .f32⟩
  | 13 => ⟨S_, .f32⟩
  | 14 => ⟨S_, .f32⟩
  | _ => ⟨S65536, .f32⟩

abbrev hbmTy (i : Nat) : BufTy := match i / 128 with
  | 0 => hbmTy0_0 i
  | 1 => hbmTy0_1 i
  | _ => ⟨S65536, .f32⟩

abbrev bufTy : (tb : Table) → Fin (tcTables nBuf tb) → BufTy
  | .hbm, ⟨i, _⟩ => hbmTy i
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_c : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_c_17 : Ref sig .tc := ⟨.hbm, 87, rfl⟩
abbrev main_v60 : Ref sig .tc := ⟨.hbm, 88, rfl⟩
abbrev main_v61 : Ref sig .tc := ⟨.hbm, 89, rfl⟩
abbrev main_c_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_19 : Ref sig .tc := ⟨.hbm, 96, rfl⟩
abbrev main_v67 : Ref sig .tc := ⟨.hbm, 97, rfl⟩
abbrev main_v68 : Ref sig .tc := ⟨.hbm, 98, rfl⟩
abbrev main_c_20 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_21 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_22 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_23 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_25 : Ref sig .tc := ⟨.hbm, 124, rfl⟩
abbrev main_v89 : Ref sig .tc := ⟨.hbm, 125, rfl⟩
abbrev main_cst_26 : Ref sig .tc := ⟨.hbm, 126, rfl⟩
abbrev main_v90 : Ref sig .tc := ⟨.hbm, 127, rfl⟩
abbrev main_v91 : Ref sig .tc := ⟨.hbm, 128, rfl⟩
abbrev main_cst_27 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_28 : Ref sig .tc := ⟨.hbm, 138, rfl⟩
abbrev main_v100 : Ref sig .tc := ⟨.hbm, 139, rfl⟩
abbrev main_cst_29 : Ref sig .tc := ⟨.hbm, 140, rfl⟩
abbrev main_v101 : Ref sig .tc := ⟨.hbm, 141, rfl⟩
abbrev main_v102 : Ref sig .tc := ⟨.hbm, 142, rfl⟩

abbrev nD : Nat := 1
abbrev τ : Topo := Topo.v7x

variable {F : FTy → Type} [FloatOps F]

class Facts₀ : Prop where
  bcast_S_S16384x2 : S_.BroadcastsInDim S16384x2 (![] : Fin 0 → Fin S16384x2.rank)
  reducesTo_S16384x2_S_d0_1 : S16384x2.ReducesTo [0, 1] S_
  h_S_ : 0 < S_.numel
  reducesTo_S16384x2_S16384_d1 : S16384x2.ReducesTo [1] S16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x2_S2x16384_1_0 : S16384x2.Transposes [1, 0] S2x16384
  bcast_S_S16384x16384 : S_.BroadcastsInDim S16384x16384 (![] : Fin 0 → Fin S16384x16384.rank)
  reducesTo_S16384x16384_S_d0_1 : S16384x16384.ReducesTo [0, 1] S_
  bcast_S_S65536 : S_.BroadcastsInDim S65536 (![] : Fin 0 → Fin S65536.rank)
  bcast_S65536_S65536x1_0 : S65536.BroadcastsInDim S65536x1 (![0] : Fin 1 → Fin S65536x1.rank)
  bcast_S_S65536x2 : S_.BroadcastsInDim S65536x2 (![] : Fin 0 → Fin S65536x2.rank)
  reducesTo_S65536x2_S_d0_1 : S65536x2.ReducesTo [0, 1] S_
  reducesTo_S65536x2_S65536_d1 : S65536x2.ReducesTo [1] S65536
  reducesTo_S65536_S_d0 : S65536.ReducesTo [0] S_
  dot_S16384x2_S2x16384_S16384x16384_1_0_0_1_n_n_wf : DotDims.WF S16384x2 S2x16384 S16384x16384 [1] [0] [0] [1] [] []
  gather_S16384x2_S65536x1_S65536x2_1_0_n_n_0_1_12_wf : GatherDims.WF S16384x2 S65536x1 S65536x2 [1] [0] [] [0] [] 1 ![1, 2]

variable [Facts₀]

def dot_S16384x2_S2x16384_S16384x16384_1_0_0_1_n_n : DotDims S16384x2 S2x16384 S16384x16384 where
  lhsContracting := [1]
  rhsContracting := [0]
  lhsNonContracting := [0]
  rhsNonContracting := [1]
  lhsBatch := []
  rhsBatch := []
  wf := dot_S16384x2_S2x16384_S16384x16384_1_0_0_1_n_n_wf
def gather_S16384x2_S65536x1_S65536x2_1_0_n_n_0_1_12 : GatherDims S16384x2 S65536x1 S65536x2 where
  offsetDims := [1]
  collapsedSliceDims := [0]
  operandBatchingDims := []
  startIndicesBatchingDims := []
  startIndexMap := [0]
  indexVectorDim := 1
  sliceSizes := ![1, 2]
  wf := gather_S16384x2_S65536x1_S65536x2_1_0_n_n_0_1_12_wf

class Facts : Prop extends Facts₀ where

variable [Facts]
-- ==== Proof.KernelKit.lean ====
import proofs.«134232_j81690277970638_1_alg».proof.Proof.Gen.Kernel.Launch
import proofs.«134232_j81690277970638_1_alg».proof.Proof.Gen.Kernel.Skeleton
import proofs.«134232_j81690277970638_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is eighteen host lines (the embedding `x = eps * exp(lv / 2) + mu`, its transpose, and a scalar the
region does not touch), the region — which sums `1 / (1 + |x_r - x_c|^2)` over all pairs of points, tile by tile, into
a one-element accumulator —, and ninety-four host lines that turn that sum into the loss. This module states the
layout around the region: what the region finds, that the later lines neither allocate nor write an array the region
stages, that no line writes an argument, and the shape of the region's two conditions over the grid. -/

/-- The buffer contents when the region is entered: the launch contents after the host lines before the region. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program reduces to the region continued by the later host lines, the earlier ones already run. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each later line writes its own result buffer only, and none of those is an array the region stages
    (the embedding, its transpose, the one-element sum). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' window holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The columns' window holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the library's post read after the later lines: no argument is staged by the region and no line
    writes one, so each ends at its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The region's two conditions over the grid -/

/-- "This is the first tile" (`r = 0` and `c = 0`): the accumulator is reset. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at grid point 0 only. -/
theorem hcond0_0 : ∀ t : Fin cfg0.N, cond0_0 (grid0.coords t) ↔ t.val % 512 = 0 :=
  (by decide +kernel : ∀ t : Fin grid0.N, cond0_0 (grid0.coords t) ↔ t.val % 512 = 0)

/-- "This is the last tile" (`r = 63` and `c = 7`): the accumulator is copied to the output. -/
abbrev cond0_1 (i : grid0.Coords) : Prop := k0_cond2 i = 1#1
/-- It holds at grid point 511 only. -/
theorem hcond0_1 : ∀ t : Fin cfg0.N, cond0_1 (grid0.coords t) ↔ t.val % 512 = 511 :=
  (by decide +kernel : ∀ t : Fin grid0.N, cond0_1 (grid0.coords t) ↔ t.val % 512 = 511)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last tile it is live. -/
theorem liveAt0_2 : ∀ t : Fin cfg0.N, cond0_1 (grid0.coords t) → cfg0.idle 2 (grid0.coords t) = false := by decide +kernel

/-! ## The memrefs the body is called with -/

abbrev VO0_2 : View sig .tc .vmem S1x1 .f32 := (Memref.whole cc0_stg2_0 : Memref sig .tc .vmem S1x1 .f32).view
abbrev ms0_0 (t : Fin cfg0.N) : Memref sig .tc .vmem S256x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a one-element buffer of the kernel's own, carried from tile to tile. -/
abbrev scM0_0 : Memref sig .tc .vmem S1x1 .f32 := Memref.whole cc0_scratch0
abbrev VS0_0 : View sig .tc .vmem S1x1 .f32 := scM0_0.view

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRunA.lean ====
import proofs.«134232_j81690277970638_1_alg».proof.Proof.KernelKit

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST tile. The accumulator, whatever it held, is overwritten with zero and then with zero plus the
    tile's sum; the output buffer is not touched. The pieces the accumulator ends with are found by the run. -/
noncomputable def kernelRun0_A (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_kernel i arg2 harg2 arg3 harg3 arg4 harg4 arg5 harg5) K } := by
  refine ⟨[], ?_, fun xi2 E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KernelRunB.lean ====
import proofs.«134232_j81690277970638_1_alg».proof.Proof.KernelRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a tile that is neither first nor last. The accumulator, holding what the tile before left, is overwritten
    with that plus the tile's sum; the output buffer is not touched. -/
noncomputable def kernelRun0_B (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_kernel i arg2 harg2 arg3 harg3 arg4 harg4 arg5 harg5) K } := by
  refine ⟨[], ?_, fun xi2 E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KernelRunC.lean ====
import proofs.«134232_j81690277970638_1_alg».proof.Proof.KernelRunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST tile. The accumulator is overwritten with what the tile before left plus the tile's sum, and
    that value is stored into the output buffer, whatever it held. -/
noncomputable def kernelRun0_C (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_kernel i arg2 harg2 arg3 harg3 arg4 harg4 arg5 harg5) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KernelFrame.lean ====
import proofs.«134232_j81690277970638_1_alg».proof.Proof.KernelRunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator and in the output buffer

Each case's run ends with a list of stored pieces per buffer. The accumulator is one element and every case's last
store covers it, so its contents after the body are those pieces read back, whatever it held before. -/

/-- The output buffer at a tile that leaves it alone: a placeholder nothing consults (the window is idle there and
    not written back). -/
def idleOut : Vec F S1x1 .f32 := VO0_2.read (Elt F) (VO0_2.writes (Elt F) VO0_2.junk [])

theorem scover0_A_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) (y : S1x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1.size (by sl_kernel_rfl) y

/-- What case A leaves in the accumulator. -/
def sout0_A_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) : Vec F S1x1 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) (y : S1x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x1.size (by sl_kernel_rfl) y

/-- What case B leaves in the accumulator. -/
def sout0_B_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) : Vec F S1x1 .f32 :=
  VS0_0.read (Elt F) (VS0_0.writes (Elt F) VS0_0.junk (kernelRun0_B c i arg2 harg2 arg3 harg3 arg4 harg4 arg5 harg5 hc0 hc1 x0 x1 xs0).2.1)

theorem scover0_C_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1.size (by sl_kernel_rfl) y

/-- What case C leaves in the accumulator. -/
def sout0_C_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) : Vec F S1x1 .f32 :=
  VS0_0.read (Elt F) (VS0_0.writes (Elt F) VS0_0.junk (kernelRun0_C c i arg2 harg2 arg3 harg3 arg4 harg4 arg5 harg5 hc0 hc1 x0 x1 xs0).2.1)

theorem cover0_C_2 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) (y : S1x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1.size (by sl_kernel_rfl) y

/-- What the last tile leaves in the output buffer. -/
def out0_C_2 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) : Vec F S1x1 .f32 :=
  VO0_2.read (Elt F) (VO0_2.writes (Elt F) VO0_2.junk (kernelRun0_C c i arg2 harg2 arg3 harg3 arg4 harg4 arg5 harg5 hc0 hc1 x0 x1 xs0).1)

/-! ## The accumulation over the grid's points -/

/-- What the output buffer and the accumulator hold after the body at grid position `n`: the first tile's contents at
    `0`; afterwards the middle case's or the last case's contents over what position `n - 1` left in the accumulator. -/
def outsAt0 (c : Dev nD) : (n : ℕ) → n < cfg0.N → Vec F S1x1 .f32 × Vec F S1x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 512 = 0 then
      False.elim (by have hN : n + 1 < 512 := lt_of_lt_of_eq hn (show cfg0.N = 512 from N_0); omega)
    else
      if h1 : (n + 1) % 512 = 511 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 512 = 0) (h1 : ¬t.val % 512 = 511) :
    outsAt0 m c t.val t.isLt = (idleOut, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (by exfalso; have hN : n + 1 < 512 := lt_of_lt_of_eq hn (show cfg0.N = 512 from N_0); (try dsimp only at h0); omega)

theorem outsAt0_B (c : Dev nD) (t : Fin cfg0.N) (h0 : ¬t.val % 512 = 0) (h1 : ¬t.val % 512 = 511) :
    outsAt0 m c t.val t.isLt = (idleOut, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 512 = 0) (h1 : t.val % 512 = 511) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first tile the accumulator holds anything; afterwards it
    holds what the tile before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input buffer at its block, the output buffer and the
    accumulator as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs hold their blocks; the point's position says which case it is; the invariant hands
    the body the accumulator (at anything at the first tile, at what the tile before left afterwards) and takes it back at
    this tile's contents; the output buffer is handed back untouched except at the last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 512 = 511
  · have h0 : ¬t.val % 512 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [outsAt0_C m c t h0 h1]
    unfold out0_C_2 sout0_C_0; (try dsimp only)
    rw [PhiS_castSucc m c t, PhiS_pos m c _ _ hz]
    iintro ⟨⟨HS0, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · rw [Dat.leavesExact_idle (dats m 0 c) 2 t (idleAt0_2 t (fun h => h1 ((hcond0_1 t).mp h))) (noFlush0_2 t (fun h => h1 ((hcond0_1 t).mp h)))]
    by_cases h0 : t.val % 512 = 0
    · have hz : t.val = 0 := by omega
      rw [outsAt0_A m c t h0 h1]
      unfold sout0_A_0; (try dsimp only)
      rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · have hz : t.val ≠ 0 := by omega
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option maxHeartbeats 16000000 in
set_option backward.isDefEq.respectTransparency.types false in
/-- Every weakly fair execution of the program terminates, without a fault; at the end every array the region stages is at
    what the proof data say, and every other unscoped buffer at what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Hand

end
-- ==== Proof.KernelIdealKit.lean ====
import proofs.«134232_j81690277970638_1_alg».proof.Proof.Gen.KernelIdeal.Launch
import proofs.«134232_j81690277970638_1_alg».proof.Proof.Gen.KernelIdeal.Skeleton
import proofs.«134232_j81690277970638_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is eighteen host lines (the embedding `x = eps * exp(lv / 2) + mu`, its transpose, and a scalar the
region does not touch), the region — which sums `1 / (1 + |x_r - x_c|^2)` over all pairs of points, tile by tile, into
a one-element accumulator —, and ninety-four host lines that turn that sum into the loss. This module states the
layout around the region: what the region finds, that the later lines neither allocate nor write an array the region
stages, that no line writes an argument, and the shape of the region's two conditions over the grid. -/

/-- The buffer contents when the region is entered: the launch contents after the host lines before the region. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program reduces to the region continued by the later host lines, the earlier ones already run. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each later line writes its own result buffer only, and none of those is an array the region stages
    (the embedding, its transpose, the one-element sum). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' window holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The columns' window holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the library's post read after the later lines: no argument is staged by the region and no line
    writes one, so each ends at its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The region's two conditions over the grid -/

/-- "This is the first tile" (`r = 0` and `c = 0`): the accumulator is reset. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at grid point 0 only. -/
theorem hcond0_0 : ∀ t : Fin cfg0.N, cond0_0 (grid0.coords t) ↔ t.val % 512 = 0 :=
  (by decide +kernel : ∀ t : Fin grid0.N, cond0_0 (grid0.coords t) ↔ t.val % 512 = 0)

/-- "This is the last tile" (`r = 63` and `c = 7`): the accumulator is copied to the output. -/
abbrev cond0_1 (i : grid0.Coords) : Prop := k0_cond2 i = 1#1
/-- It holds at grid point 511 only. -/
theorem hcond0_1 : ∀ t : Fin cfg0.N, cond0_1 (grid0.coords t) ↔ t.val % 512 = 511 :=
  (by decide +kernel : ∀ t : Fin grid0.N, cond0_1 (grid0.coords t) ↔ t.val % 512 = 511)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last tile it is live. -/
theorem liveAt0_2 : ∀ t : Fin cfg0.N, cond0_1 (grid0.coords t) → cfg0.idle 2 (grid0.coords t) = false := by decide +kernel

/-! ## The memrefs the body is called with -/

abbrev VO0_2 : View sig .tc .vmem S1x1 .f32 := (Memref.whole cc0_stg2_0 : Memref sig .tc .vmem S1x1 .f32).view
abbrev ms0_0 (t : Fin cfg0.N) : Memref sig .tc .vmem S256x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a one-element buffer of the kernel's own, carried from tile to tile. -/
abbrev scM0_0 : Memref sig .tc .vmem S1x1 .f32 := Memref.whole cc0_scratch0
abbrev VS0_0 : View sig .tc .vmem S1x1 .f32 := scM0_0.view

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdealRunA.lean ====
import proofs.«134232_j81690277970638_1_alg».proof.Proof.KernelIdealKit

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST tile. The accumulator, whatever it held, is overwritten with zero and then with zero plus the
    tile's sum; the output buffer is not touched. The pieces the accumulator ends with are found by the run. -/
noncomputable def kernelRun0_A (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_kernel i arg2 harg2 arg3 harg3 arg4 harg4 arg5 harg5) K } := by
  refine ⟨[], ?_, fun xi2 E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdealRunB.lean ====
import proofs.«134232_j81690277970638_1_alg».proof.Proof.KernelIdealRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a tile that is neither first nor last. The accumulator, holding what the tile before left, is overwritten
    with that plus the tile's sum; the output buffer is not touched. -/
noncomputable def kernelRun0_B (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_kernel i arg2 harg2 arg3 harg3 arg4 harg4 arg5 harg5) K } := by
  refine ⟨[], ?_, fun xi2 E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdealRunC.lean ====
import proofs.«134232_j81690277970638_1_alg».proof.Proof.KernelIdealRunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST tile. The accumulator is overwritten with what the tile before left plus the tile's sum, and
    that value is stored into the output buffer, whatever it held. -/
noncomputable def kernelRun0_C (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pairwise_kernel i arg2 harg2 arg3 harg3 arg4 harg4 arg5 harg5) K } := by
  refine ⟨?_, ?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdealFrame.lean ====
import proofs.«134232_j81690277970638_1_alg».proof.Proof.KernelIdealRunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator and in the output buffer

Each case's run ends with a list of stored pieces per buffer. The accumulator is one element and every case's last
store covers it, so its contents after the body are those pieces read back, whatever it held before. -/

/-- The output buffer at a tile that leaves it alone: a placeholder nothing consults (the window is idle there and
    not written back). -/
def idleOut : Vec F S1x1 .f32 := VO0_2.read (Elt F) (VO0_2.writes (Elt F) VO0_2.junk [])

theorem scover0_A_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) (y : S1x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1.size (by sl_kernel_rfl) y

/-- What case A leaves in the accumulator. -/
def sout0_A_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) : Vec F S1x1 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) (y : S1x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x1.size (by sl_kernel_rfl) y

/-- What case B leaves in the accumulator. -/
def sout0_B_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) : Vec F S1x1 .f32 :=
  VS0_0.read (Elt F) (VS0_0.writes (Elt F) VS0_0.junk (kernelRun0_B c i arg2 harg2 arg3 harg3 arg4 harg4 arg5 harg5 hc0 hc1 x0 x1 xs0).2.1)

theorem scover0_C_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1.size (by sl_kernel_rfl) y

/-- What case C leaves in the accumulator. -/
def sout0_C_0 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) : Vec F S1x1 .f32 :=
  VS0_0.read (Elt F) (VS0_0.writes (Elt F) VS0_0.junk (kernelRun0_C c i arg2 harg2 arg3 harg3 arg4 harg4 arg5 harg5 hc0 hc1 x0 x1 xs0).2.1)

theorem cover0_C_2 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) (y : S1x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1.size (by sl_kernel_rfl) y

/-- What the last tile leaves in the output buffer. -/
def out0_C_2 (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) : Vec F S1x1 .f32 :=
  VO0_2.read (Elt F) (VO0_2.writes (Elt F) VO0_2.junk (kernelRun0_C c i arg2 harg2 arg3 harg3 arg4 harg4 arg5 harg5 hc0 hc1 x0 x1 xs0).1)

/-! ## The accumulation over the grid's points -/

/-- What the output buffer and the accumulator hold after the body at grid position `n`: the first tile's contents at
    `0`; afterwards the middle case's or the last case's contents over what position `n - 1` left in the accumulator. -/
def outsAt0 (c : Dev nD) : (n : ℕ) → n < cfg0.N → Vec F S1x1 .f32 × Vec F S1x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 512 = 0 then
      False.elim (by have hN : n + 1 < 512 := lt_of_lt_of_eq hn (show cfg0.N = 512 from N_0); omega)
    else
      if h1 : (n + 1) % 512 = 511 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 512 = 0) (h1 : ¬t.val % 512 = 511) :
    outsAt0 m c t.val t.isLt = (idleOut, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (by exfalso; have hN : n + 1 < 512 := lt_of_lt_of_eq hn (show cfg0.N = 512 from N_0); (try dsimp only at h0); omega)

theorem outsAt0_B (c : Dev nD) (t : Fin cfg0.N) (h0 : ¬t.val % 512 = 0) (h1 : ¬t.val % 512 = 511) :
    outsAt0 m c t.val t.isLt = (idleOut, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 512 = 0) (h1 : t.val % 512 = 511) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first tile the accumulator holds anything; afterwards it
    holds what the tile before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input buffer at its block, the output buffer and the
    accumulator as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs hold their blocks; the point's position says which case it is; the invariant hands
    the body the accumulator (at anything at the first tile, at what the tile before left afterwards) and takes it back at
    this tile's contents; the output buffer is handed back untouched except at the last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 512 = 511
  · have h0 : ¬t.val % 512 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [outsAt0_C m c t h0 h1]
    unfold out0_C_2 sout0_C_0; (try dsimp only)
    rw [PhiS_castSucc m c t, PhiS_pos m c _ _ hz]
    iintro ⟨⟨HS0, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · rw [Dat.leavesExact_idle (dats m 0 c) 2 t (idleAt0_2 t (fun h => h1 ((hcond0_1 t).mp h))) (noFlush0_2 t (fun h => h1 ((hcond0_1 t).mp h)))]
    by_cases h0 : t.val % 512 = 0
    · have hz : t.val = 0 := by omega
      rw [outsAt0_A m c t h0 h1]
      unfold sout0_A_0; (try dsimp only)
      rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · have hz : t.val ≠ 0 := by omega
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option maxHeartbeats 16000000 in
set_option backward.isDefEq.respectTransparency.types false in
/-- Every weakly fair execution of the program terminates, without a fault; at the end every array the region stages is at
    what the proof data say, and every other unscoped buffer at what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Hand

end
-- ==== Proof.KernelIdealValue.lean ====
import proofs.«134232_j81690277970638_1_alg».proof.Proof.KernelIdealFrame
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator's contents, case by case

Every case's last store into the one-element accumulator is `acc + s`, where `s` is the tile's sum — the payload
`k0_pay2` of the tile's four loads (two columns of the rows' block, two rows of the columns' block) and of what the
accumulator held: zero at the first tile (the reset just stored), what the tile before left afterwards. The last tile
copies that value into the output buffer. -/

theorem hz : (![0, 0] : Fin 2 → Nat) = fun _ => 0 := funext fun a => by fin_cases a <;> rfl

/-- The tile's contribution added to `acc`: the payload over the tile's four loads. -/
abbrev step (x0 : Vec F S256x2 .f32) (x1 : Vec F S2x2048 .f32) (acc : Vec F S1x1 .f32) : Vec F S1x1 .f32 :=
  k0_pay2 (View.ld x0 (Rect.unit (s := S256x2) ![0, 0] S256x1.size inb_S256x2_S256x1_0_0)) (View.ld x0 (Rect.unit (s := S256x2) ![0, 1] S256x1.size inb_S256x2_S256x1_0_1)) (View.ld x1 (Rect.unit (s := S2x2048) ![0, 0] S1x2048.size inb_S2x2048_S1x2048_0_0)) (View.ld x1 (Rect.unit (s := S2x2048) ![1, 0] S1x2048.size inb_S2x2048_S1x2048_1_0)) acc

theorem acc_B (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S256x2 .f32) (x1 : Vec F S2x2048 .f32) (xs0 : Vec F S1x1 .f32) : sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S1x1) hz]

theorem acc_C (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) : sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1x1) hz]

theorem out_C (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S256x2 .f32) (x1 : Vec F S2x2048 .f32) (xs0 : Vec F S1x1 .f32) : out0_C_2 c i arg2 harg2 arg3 harg3 arg4 harg4 arg5 harg5 hc0 hc1 x0 x1 xs0 = step x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1x1) _ hz]
  simp only [View.readAt_eq_ld, harg2.read_unread, harg3.read_unread, harg5.read_unread, View.ld_unit_zero (S := S1x1) hz]

theorem acc_A (c : Dev nD) (i : grid0.Coords) (arg2 : Memref sig .tc .vmem S256x2 .f32) (harg2 : arg2.IsWhole) (arg3 : Memref sig .tc .vmem S2x2048 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S256x2 .f32) (x1 : Vec F S2x2048 .f32) : sout0_A_0 c i arg2 harg2 arg3 harg3 arg4 harg4 arg5 harg5 hc0 hc1 x0 x1 = step x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S1x1) hz]

/-! ## The accumulator after each tile, and the result array -/

/-- The running value: the reset's zero plus the first tile's sum, then each later tile's sum added in grid order. -/
def chain (c : Dev nD) : (n : ℕ) → n < cfg0.N → Vec F S1x1 .f32
  | 0, h => step (iblk m c 0 ⟨0, h⟩) (iblk m c 1 ⟨0, h⟩) (k0_pay1 (F := F))
  | n + 1, h => step (iblk m c 0 ⟨n + 1, h⟩) (iblk m c 1 ⟨n + 1, h⟩) (chain c n (Nat.lt_of_succ_lt h))

/-- The accumulator after the body at position `n` is the running value, by induction on the position. -/
theorem acc_eq (c : Dev nD) : ∀ (n : ℕ) (h : n < cfg0.N), (outsAt0 m c n h).2 = chain m c n h
  | 0, h => by
    rw [outsAt0_A m c ⟨0, h⟩ rfl (by dsimp only; omega)]
    dsimp only
    exact acc_A (F := F) c _ _ _ _ _ _ _ _ _ _ _ _ _
  | n + 1, h => by
    have hN : cfg0.N = 512 := N_0
    have h0 : ¬(⟨n + 1, h⟩ : Fin cfg0.N).val % 512 = 0 := by dsimp only; omega
    by_cases h1 : (⟨n + 1, h⟩ : Fin cfg0.N).val % 512 = 511
    · rw [outsAt0_C m c ⟨n + 1, h⟩ h0 h1]
      dsimp only
      rw [acc_C]
      show step _ _ (outsAt0 m c n _).2 = step _ _ (chain m c n _)
      rw [acc_eq c n]
    · rw [outsAt0_B m c ⟨n + 1, h⟩ h0 h1]
      dsimp only
      rw [acc_B]
      show step _ _ (outsAt0 m c n _).2 = step _ _ (chain m c n _)
      rw [acc_eq c n]

/-- The last grid point. -/
abbrev tLast : Fin cfg0.N := ⟨511, by rw [show cfg0.N = 512 from N_0]; decide⟩

/-- What the last tile stores into the output buffer is the running value after the last tile. -/
theorem out_last (c : Dev nD) : (outsAt0 m c tLast.val tLast.isLt).1 = chain m c 511 tLast.isLt := by
  have h0 : ¬(tLast : Fin cfg0.N).val % 512 = 0 := by decide
  have h1 : (tLast : Fin cfg0.N).val % 512 = 511 := by decide
  rw [outsAt0_C m c tLast h0 h1]
  dsimp only
  rw [out_C]
  show step _ _ (outsAt0 m c 510 _).2 = step _ _ (chain m c 510 _)
  rw [acc_eq m c 510]

/-- The result array's contents: the running value after the last tile. -/
abbrev result (c : Dev nD) : Buf (Elt F) ((c : Thread nD τ).loc main_v14) := chain m c 511 tLast.isLt

/-- The one write-back, at the last point, writes it: block (0, 0) of the [1,1] array is the array. -/
theorem flushed_eq (c : Dev nD) (t : Fin cfg0.N) (hf : (cfg0.win 2).flush t = true) :
    (dats m 0 c).flushed 2 t = ((cfg0.win 2).blk t).view.read (Elt F) (result m c) := by
  have hN : cfg0.N = 512 := N_0
  have h3 : t.val = 511 := by have := (flush0_2 t).mp hf; have := t.isLt; omega
  obtain rfl : t = tLast := Fin.ext h3
  show (cfg0.win 2).cut (grid0.coords tLast) ((dats m 0 c).after 2 tLast) = _
  rw [after0_2, out_last]
  have hz' : (fun a => win0_2.index tLast a * main_v14.ty.shape.size a) = fun _ => 0 := funext fun a => by fin_cases a <;> decide
  exact (Memref.read_access_unit_zero (Elt F) main_v14 hz' (fun a => by rw [congrFun hz' a]; simp) (result m c)).symm

/-- So the result array ends holding the running value after the last tile. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v14).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

end Cert.KernelIdeal.Hand

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.PairLaw.lean ====
import Mathlib
import Idealize.ShloMosaic.PureOps.Ideal
import Idealize.ShloMosaic.PureOps.Ideal.Laws

/-!
One pair's contribution, spelled two ways: with the squared distance written as a sum of squared
coordinate differences, and with the squared distance written in the Gram form
`max ((|a|² + |b|²) - 2⟨a,b⟩, 0)`. For real coordinates the two agree, because
`(|a|² + |b|²) - 2⟨a,b⟩ = (a₀ - b₀)² + (a₁ - b₁)² ≥ 0`.
-/

namespace Cert.PairLaw
open Idealize.ShloMosaic

/-- The f32 word `0x3F800000` denotes the real number one. -/
theorem one_f32 : Ideal.ofBits .f32 0x3F800000#32 = 1 := by
  simp [Ideal.ofBits, Ideal.ieee]
  rw [← EReal.coe_mul, ← EReal.coe_one]
  congr 1
  norm_num

/-- The f32 word `0x40000000` denotes the real number two. -/
theorem two_f32 : Ideal.ofBits .f32 0x40000000#32 = 2 := by
  simp [Ideal.ofBits, Ideal.ieee]
  rw [← EReal.coe_mul, show (2 : EReal) = ((2 : ℝ) : EReal) from rfl]
  congr 1
  norm_num

/-- The f32 word `0x00000000` denotes zero. -/
theorem zero_f32 : Ideal.ofBits .f32 0x00000000#32 = 0 := Ideal.ofBits_zero_f32

/-- one pair's term as the kernel spells it -/
noncomputable def kTerm (a0 a1 b0 b1 : EReal) : EReal :=
  Ideal.div (Ideal.ofBits .f32 0x3F800000#32) (Ideal.ofBits .f32 0x3F800000#32 + ((a0 - b0) * (a0 - b0) + (a1 - b1) * (a1 - b1)))

/-- one pair's term as the reference spells it (z = the f32 zero word's value, two = the word 0x40000000's value) -/
noncomputable def rTerm (a0 a1 b0 b1 : EReal) : EReal :=
  Ideal.div (Ideal.ofBits .f32 0x3F800000#32) (Ideal.ofBits .f32 0x3F800000#32 +
    max (((Ideal.ofBits .f32 0x00000000#32 + (a0 * a0 + a1 * a1)) + (Ideal.ofBits .f32 0x00000000#32 + (b0 * b0 + b1 * b1))) - Ideal.ofBits .f32 0x40000000#32 * (a0 * b0 + a1 * b1)) (Ideal.ofBits .f32 0x00000000#32))

/-- For real coordinates the Gram form of the squared distance is the sum of the squared
coordinate differences, which is nonnegative, so the clamp at zero changes nothing. -/
theorem rTerm_eq_kTerm (a0 a1 b0 b1 : ℝ) : rTerm a0 a1 b0 b1 = kTerm a0 a1 b0 b1 := by
  unfold rTerm kTerm
  rw [one_f32, zero_f32, two_f32]
  have hk : ((a0 : EReal) - b0) * (a0 - b0) + ((a1 : EReal) - b1) * (a1 - b1)
      = (((a0 - b0) * (a0 - b0) + (a1 - b1) * (a1 - b1) : ℝ) : EReal) := by
    push_cast
    rfl
  have hr : max ((((0 : EReal) + ((a0 : EReal) * a0 + a1 * a1)) + (0 + ((b0 : EReal) * b0 + b1 * b1))) - 2 * ((a0 : EReal) * b0 + a1 * b1)) 0
      = (((a0 - b0) * (a0 - b0) + (a1 - b1) * (a1 - b1) : ℝ) : EReal) := by
    have e : (((0 : EReal) + ((a0 : EReal) * a0 + a1 * a1)) + (0 + ((b0 : EReal) * b0 + b1 * b1))) - 2 * ((a0 : EReal) * b0 + a1 * b1)
        = (((a0 - b0) * (a0 - b0) + (a1 - b1) * (a1 - b1) : ℝ) : EReal) := by
      rw [zero_add, zero_add, show (2 : EReal) = ((2 : ℝ) : EReal) from rfl]
      rw [← EReal.coe_mul, ← EReal.coe_mul, ← EReal.coe_mul, ← EReal.coe_mul, ← EReal.coe_mul, ← EReal.coe_mul,
        ← EReal.coe_add, ← EReal.coe_add, ← EReal.coe_add, ← EReal.coe_add, ← EReal.coe_mul, ← EReal.coe_sub]
      congr 1
      ring
    rw [e]
    apply max_eq_left
    have : (0 : ℝ) ≤ (a0 - b0) * (a0 - b0) + (a1 - b1) * (a1 - b1) :=
      add_nonneg (mul_self_nonneg _) (mul_self_nonneg _)
    exact_mod_cast this
  rw [hk, hr]

end Cert.PairLaw
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.LibTiles.lean ====
import Mathlib
import proofs.«134232_j81690277970638_1_alg».proof.Proof.LibBlocks

/-!
Sums over a square index range cut into rectangular tiles, and a running total read as a partial sum.

A 16384 × 16384 range is 64 × 8 tiles of 256 rows by 2048 columns; tile `t` starts at row `(t / 8) * 256`
and column `(t % 8) * 2048`. Summing tile by tile, and inside each tile entry by entry, visits every pair
of the range exactly once.
-/

open Finset

namespace Cert.LibTiles

/-- The sum over all 512 tiles (64 rows of tiles by 8 columns of tiles, each tile 256 × 2048) of the sum over
the tile's entries is the sum over the whole 16384 × 16384 range. -/
theorem tiles_sum {M : Type*} [AddCommMonoid M] (f : ℕ → ℕ → M) :
    (∑ t : Fin 512, ∑ i : Fin 256, ∑ j : Fin 2048, f ((t.val / 8) * 256 + i.val) ((t.val % 8) * 2048 + j.val))
      = ∑ R : Fin 16384, ∑ C : Fin 16384, f R.val C.val := by
  -- the tiles: 64 stretches of 8
  have hT : ∀ h : ℕ → ℕ → M, ∑ t : Fin 512, h (t.val / 8) (t.val % 8) = ∑ a : Fin 64, ∑ b : Fin 8, h a.val b.val := by
    intro h
    have := Cert.LibBlocks.sum_entries (A := 64) (B := 8) (fun k => h (k.val / 8) (k.val % 8))
    refine this.trans (sum_congr rfl fun a _ => sum_congr rfl fun b _ => ?_)
    have hb := b.isLt
    have e1 : (a.val * 8 + b.val) / 8 = a.val := by omega
    have e2 : (a.val * 8 + b.val) % 8 = b.val := by omega
    show h ((a.val * 8 + b.val) / 8) ((a.val * 8 + b.val) % 8) = _
    rw [e1, e2]
  -- the rows: 64 stretches of 256
  have hR : ∀ g : ℕ → M, ∑ R : Fin 16384, g R.val = ∑ a : Fin 64, ∑ i : Fin 256, g (a.val * 256 + i.val) :=
    fun g => Cert.LibBlocks.sum_entries (A := 64) (B := 256) (fun k => g k.val)
  -- the columns: 8 stretches of 2048
  have hC : ∀ g : ℕ → M, ∑ C : Fin 16384, g C.val = ∑ b : Fin 8, ∑ j : Fin 2048, g (b.val * 2048 + j.val) :=
    fun g => Cert.LibBlocks.sum_entries (A := 8) (B := 2048) (fun k => g k.val)
  rw [hT (fun a b => ∑ i : Fin 256, ∑ j : Fin 2048, f (a * 256 + i.val) (b * 2048 + j.val)),
    hR (fun R => ∑ C : Fin 16384, f R C.val)]
  refine sum_congr rfl fun a _ => ?_
  rw [sum_comm]
  refine sum_congr rfl fun i _ => ?_
  rw [hC (fun C => f (a.val * 256 + i.val) C)]

/-- A total that starts at `z + p 0` and gains `p (n + 1)` at step `n + 1` is, after step `n`, `z` plus the sum
of `p` over the first `n + 1` indices. -/
theorem running_sum {M : Type*} [AddCommMonoid M] (z : M) (p : ℕ → M) (acc : ℕ → M) (h0 : acc 0 = z + p 0)
    (hs : ∀ n, acc (n + 1) = acc n + p (n + 1)) (n : ℕ) :
    acc n = z + ∑ t ∈ Finset.range (n + 1), p t := by
  induction n with
  | zero => rw [h0, zero_add, sum_range_one]
  | succ k ih => rw [hs, ih, sum_range_succ _ (k + 1), add_assoc]

end Cert.LibTiles
-- ==== Proof.KernelIdealSum.lean ====
import proofs.«134232_j81690277970638_1_alg».proof.Proof.KernelIdealValue
import proofs.«134232_j81690277970638_1_alg».proof.Proof.LibRows
import proofs.«134232_j81690277970638_1_alg».proof.Proof.LibCols
import proofs.«134232_j81690277970638_1_alg».proof.Proof.LibLayout
import proofs.«134232_j81690277970638_1_alg».proof.Proof.LibColsJoin
import proofs.«134232_j81690277970638_1_alg».proof.Proof.PairLaw
import proofs.«134232_j81690277970638_1_alg».proof.Proof.LibTiles
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.PairLaw

/-! ## The pair sum, read at coordinates on the extended reals

One tile adds to the accumulator the sum, over its 256 rows `s` and 2048 columns `j`, of
`1 / (1 + ((a_s0 - b_0j)^2 + (a_s1 - b_1j)^2))`, where `a` is the rows' block of the embedding `x` and `b` the columns'
block of its transpose: the lane sum of each row, then the sum of the 256 row sums. Tile `t` sits at rows
`(t / 8) * 256 + s` and columns `(t % 8) * 2048 + j`, so the 512 tiles' sums, added in grid order onto the reset's zero,
are zero plus the sum over all pairs of points. -/

/-- The one-element array has one index. -/
theorem idx11 (i : S1x1.Idx) : i = ix2 (0 : Fin 1) (0 : Fin 1) := by
  funext a; apply Fin.ext
  match a with
  | ⟨0, _⟩ => have h : (i 0 : ℕ) < 1 := (i 0).isLt; show (i 0 : ℕ) = 0; omega
  | ⟨1, _⟩ => have h : (i 1 : ℕ) < 1 := (i 1).isLt; show (i 1 : ℕ) = 0; omega

/-- The one-element array read as a scalar. -/
theorem cast_scalar (v : S1x1.Idx → EReal) (h : S1x1.ShapeCasts S_) (i : S_.Idx) : shapeCast S_ v h i = v (ix2 (0 : Fin 1) (0 : Fin 1)) :=
  congrArg v (idx11 _)

/-- Column `k` of the rows' block, as loaded, is the block's column `k`. -/
theorem ldA_apply (x0 : Vec Ideal S256x2 .f32) (k : Fin 2) (hk : ∀ a, (![0, k.val] : Fin 2 → Nat) a + S256x1.size a ≤ S256x2.size a) (s : Fin 256) (u : Fin 1) :
    View.ld x0 (Rect.unit (s := S256x2) ![0, k.val] S256x1.size hk) (ix2 s u) = x0 (ix2 s k) := by
  show x0 _ = x0 _
  refine congrArg x0 (funext fun a => Fin.ext ?_)
  match a with
  | ⟨0, _⟩ => show 0 + 1 * s.val = s.val; omega
  | ⟨1, _⟩ => have := u.isLt; show k.val + 1 * u.val = k.val; omega

/-- Row `k` of the columns' block, as loaded, is the block's row `k`. -/
theorem ldB_apply (x1 : Vec Ideal S2x2048 .f32) (k : Fin 2) (hk : ∀ a, (![k.val, 0] : Fin 2 → Nat) a + S1x2048.size a ≤ S2x2048.size a) (u : Fin 1) (j : Fin 2048) :
    View.ld x1 (Rect.unit (s := S2x2048) ![k.val, 0] S1x2048.size hk) (ix2 u j) = x1 (ix2 k j) := by
  show x1 _ = x1 _
  refine congrArg x1 (funext fun a => Fin.ext ?_)
  match a with
  | ⟨0, _⟩ => have := u.isLt; show k.val + 1 * u.val = k.val; omega
  | ⟨1, _⟩ => show 0 + 1 * j.val = j.val; omega

/-- One tile's sum over its two blocks. -/
def tileSum (x0 : Vec Ideal S256x2 .f32) (x1 : Vec Ideal S2x2048 .f32) : EReal :=
  ∑ s : Fin 256, ∑ j : Fin 2048, kTerm (x0 (ix2 s (0 : Fin 2))) (x0 (ix2 s (1 : Fin 2))) (x1 (ix2 (0 : Fin 2) j)) (x1 (ix2 (1 : Fin 2) j))

/-- The pointwise part of the payload at `(s, j)`. -/
theorem recip_apply (v5 v7 : Vec Ideal S256x1 .f32) (v9 v11 : Vec Ideal S1x2048 .f32) (s : Fin 256) (j : Fin 2048) :
    (divf (broadcast S256x2048 (Scalar.ofBits (F := Ideal) .f32 0x3F800000#32))
      (addf (broadcast S256x2048 (Scalar.ofBits (F := Ideal) .f32 0x3F800000#32))
        (addf (mulf (subf (broadcastTo S256x2048 (shapeCast S256x1 v5 shapeCasts_S256x1_S256x1) broadcasts_S256x1_S256x2048) (broadcastTo S256x2048 (shapeCast S1x2048 v9 shapeCasts_S1x2048_S1x2048) broadcasts_S1x2048_S256x2048))
                    (subf (broadcastTo S256x2048 (shapeCast S256x1 v5 shapeCasts_S256x1_S256x1) broadcasts_S256x1_S256x2048) (broadcastTo S256x2048 (shapeCast S1x2048 v9 shapeCasts_S1x2048_S1x2048) broadcasts_S1x2048_S256x2048)))
              (mulf (subf (broadcastTo S256x2048 (shapeCast S256x1 v7 shapeCasts_S256x1_S256x1) broadcasts_S256x1_S256x2048) (broadcastTo S256x2048 (shapeCast S1x2048 v11 shapeCasts_S1x2048_S1x2048) broadcasts_S1x2048_S256x2048))
                    (subf (broadcastTo S256x2048 (shapeCast S256x1 v7 shapeCasts_S256x1_S256x1) broadcasts_S256x1_S256x2048) (broadcastTo S256x2048 (shapeCast S1x2048 v11 shapeCasts_S1x2048_S1x2048) broadcasts_S1x2048_S256x2048)))))
      : Vec Ideal S256x2048 .f32) (ix2 s j)
      = kTerm (v5 (ix2 s (0 : Fin 1))) (v7 (ix2 s (0 : Fin 1))) (v9 (ix2 (0 : Fin 1) j)) (v11 (ix2 (0 : Fin 1) j)) := by
  rw [divf_apply, addf_apply, addf_apply, mulf_apply, mulf_apply, subf_apply, subf_apply, broadcast_apply]
  rw [shapeCast_self, shapeCast_self, shapeCast_self, shapeCast_self]
  rw [broadcastTo_a1_ab_apply v5, broadcastTo_a1_ab_apply v7, Cert.LibColsJoin.bcast_row (by decide) v9, Cert.LibColsJoin.bcast_row (by decide) v11]
  rfl

set_option maxHeartbeats 4000000 in
/-- The payload at the one index: what the accumulator held plus the tile's sum. -/
theorem step_apply (x0 : Vec Ideal S256x2 .f32) (x1 : Vec Ideal S2x2048 .f32) (acc : Vec Ideal S1x1 .f32) :
    step (F := Ideal) x0 x1 acc (ix2 (0 : Fin 1) (0 : Fin 1)) = acc (ix2 (0 : Fin 1) (0 : Fin 1)) + tileSum x0 x1 := by
  unfold step k0_pay2
  dsimp only
  rw [shapeCast_self, addf_apply]
  refine congrArg (acc (ix2 (0 : Fin 1) (0 : Fin 1)) + ·) ?_
  refine (shapeCast_a_a1_apply _ shapeCasts_S1_S1x1 (0 : Fin 1) (0 : Fin 1)).trans ?_
  refine (colSum_apply _ _ reduces_S256x1_S1 (.inl rfl) rfl (0 : Fin 1)).trans ?_
  unfold tileSum
  refine Finset.sum_congr rfl fun s _ => ?_
  refine (shapeCast_a_a1_apply _ shapeCasts_S256_S256x1 s (0 : Fin 1)).trans ?_
  refine (rowSum_apply _ _ reduces_S256x2048_S256 (.inl rfl) rfl s).trans ?_
  refine Finset.sum_congr rfl fun j _ => ?_
  refine (recip_apply _ _ _ _ s j).trans ?_
  have e1 := ldA_apply x0 (0 : Fin 2) inb_S256x2_S256x1_0_0 s (0 : Fin 1)
  have e2 := ldA_apply x0 (1 : Fin 2) inb_S256x2_S256x1_0_1 s (0 : Fin 1)
  have e3 := ldB_apply x1 (0 : Fin 2) inb_S2x2048_S1x2048_0_0 (0 : Fin 1) j
  have e4 := ldB_apply x1 (1 : Fin 2) inb_S2x2048_S1x2048_1_0 (0 : Fin 1) j
  exact congr (congr (congr (congrArg kTerm e1) e2) e3) e4

end Cert.KernelIdeal.Hand

end
-- ==== Proof.KernelIdealTotal.lean ====
import proofs.«134232_j81690277970638_1_alg».proof.Proof.KernelIdealSum

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.PairLaw

/-! ## From tiles to all pairs -/

/-- Where tile `t`'s blocks sit: the rows' block at block row `t / 8`, the columns' block at block column `t % 8`. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)

/-- The rows' block of tile `t` at `(s, k)` is the embedding at row `(t / 8) * 256 + s`. -/
theorem iblk0_apply (c : Dev nD) (t : Fin cfg0.N) (s : Fin 256) (k : Fin 2) (hR : t.val / 8 * 256 + s.val < 16384) :
    (iblk m c 0 t : Vec Ideal S256x2 .f32) (ix2 s k) = V m c main_v4 (ix2 (⟨t.val / 8 * 256 + s.val, hR⟩ : Fin 16384) k) := by
  unfold iblk
  rw [View.read_apply]
  show V m c main_v4 _ = V m c main_v4 _
  generalize V m c main_v4 = X
  refine congrArg X (funext fun a => Fin.ext ?_)
  match a with
  | ⟨0, _⟩ => show win0_0.index t 0 * 256 + 1 * s.val = t.val / 8 * 256 + s.val; rw [(idx0 t).1]; omega
  | ⟨1, _⟩ => show win0_0.index t 1 * 2 + 1 * k.val = k.val; rw [(idx0 t).2]; omega

/-- The transposed embedding, as the region finds it. -/
theorem V13_eq (c : Dev nD) : V m c main_v13 = transpose S2x16384 [1, 0] (V m c main_v4) transposes_S16384x2_S2x16384_1_0 := by
  dsimp only [V, V0]
  simp only [hostOps0, List.flatten_cons, List.flatten_nil, List.append_nil]
  after_results_simp <;> rfl

theorem xT_apply (y : Vec Ideal S16384x2 .f32) (k : Fin 2) (C : Fin 16384) :
    transpose S2x16384 [1, 0] y transposes_S16384x2_S2x16384_1_0 (ix2 k C) = y (ix2 C k) :=
  transpose_apply [1, 0] y transposes_S16384x2_S2x16384_1_0 (ix2 k C) (ix2 C k) (fun b => match b with
    | ⟨0, _⟩ => rfl
    | ⟨1, _⟩ => rfl)

/-- The columns' block of tile `t` at `(k, j)` is the embedding at row `(t % 8) * 2048 + j`, coordinate `k`. -/
theorem iblk1_apply (c : Dev nD) (t : Fin cfg0.N) (k : Fin 2) (j : Fin 2048) (hC : t.val % 8 * 2048 + j.val < 16384) :
    (iblk m c 1 t : Vec Ideal S2x2048 .f32) (ix2 k j) = V m c main_v4 (ix2 (⟨t.val % 8 * 2048 + j.val, hC⟩ : Fin 16384) k) := by
  unfold iblk
  rw [View.read_apply]
  show V m c main_v13 _ = V m c main_v4 _
  rw [V13_eq]
  generalize V m c main_v4 = X
  refine Eq.trans (congrArg (transpose S2x16384 [1, 0] X transposes_S16384x2_S2x16384_1_0) (?_ : _ = ix2 k (⟨t.val % 8 * 2048 + j.val, hC⟩ : Fin 16384))) (xT_apply X k _)
  refine funext fun a => Fin.ext ?_
  match a with
  | ⟨0, _⟩ => show win0_1.index t 0 * 2 + 1 * k.val = k.val; rw [(idx1 t).1]; omega
  | ⟨1, _⟩ => show win0_1.index t 1 * 2048 + 1 * j.val = t.val % 8 * 2048 + j.val; rw [(idx1 t).2]; omega

/-- The embedding at a row number (zero past the end: never read). -/
def Xn (c : Dev nD) (R : ℕ) (k : Fin 2) : EReal := if h : R < 16384 then V m c main_v4 (ix2 (⟨R, h⟩ : Fin 16384) k) else 0

/-- Tile `t`'s sum over the embedding. -/
def P (c : Dev nD) (t : ℕ) : EReal :=
  ∑ s : Fin 256, ∑ j : Fin 2048, kTerm (Xn m c (t / 8 * 256 + s.val) 0) (Xn m c (t / 8 * 256 + s.val) 1) (Xn m c (t % 8 * 2048 + j.val) 0) (Xn m c (t % 8 * 2048 + j.val) 1)

theorem tile_eq (c : Dev nD) (t : Fin cfg0.N) : tileSum (iblk m c 0 t) (iblk m c 1 t) = P m c t.val := by
  have hN : t.val < 512 := lt_of_lt_of_eq t.isLt (show cfg0.N = 512 from N_0)
  unfold tileSum P
  refine Finset.sum_congr rfl fun s _ => Finset.sum_congr rfl fun j _ => ?_
  have hs := s.isLt; have hj := j.isLt
  have hR : t.val / 8 * 256 + s.val < 16384 := by omega
  have hC : t.val % 8 * 2048 + j.val < 16384 := by omega
  rw [iblk0_apply m c t s 0 hR, iblk0_apply m c t s 1 hR, iblk1_apply m c t 0 j hC, iblk1_apply m c t 1 j hC]
  unfold Xn
  simp only [dif_pos hR, dif_pos hC]

theorem pay1_apply : k0_pay1 (F := Ideal) (ix2 (0 : Fin 1) (0 : Fin 1)) = Ideal.ofBits .f32 0x00000000#32 := by
  unfold k0_pay1
  (try dsimp only)
  rw [shapeCast_self]
  rfl

/-- The running value after tile `n`: the reset's zero plus the sums of tiles `0 … n`. -/
theorem chain_apply (c : Dev nD) : ∀ (n : ℕ) (h : n < cfg0.N),
    chain m c n h (ix2 (0 : Fin 1) (0 : Fin 1)) = Ideal.ofBits .f32 0x00000000#32 + ∑ t ∈ Finset.range (n + 1), P m c t
  | 0, h => by
    show step _ _ _ _ = _
    rw [step_apply, tile_eq m c ⟨0, h⟩, pay1_apply, Finset.sum_range_one]
  | n + 1, h => by
    show step _ _ (chain m c n _) _ = _
    rw [step_apply, tile_eq m c ⟨n + 1, h⟩, chain_apply c n, Finset.sum_range_succ _ (n + 1), add_assoc]

/-- The region's result, read as a scalar: zero plus the sum over all pairs of points. -/
theorem kernel_total (c : Dev nD) (i : S_.Idx) :
    shapeCast S_ (result m c) shapeCasts_S1x1_S_ i
      = Ideal.ofBits .f32 0x00000000#32 + ∑ R : Fin 16384, ∑ C : Fin 16384,
          kTerm (V m c main_v4 (ix2 R (0 : Fin 2))) (V m c main_v4 (ix2 R (1 : Fin 2))) (V m c main_v4 (ix2 C (0 : Fin 2))) (V m c main_v4 (ix2 C (1 : Fin 2))) := by
  rw [cast_scalar]
  show chain m c 511 _ (ix2 (0 : Fin 1) (0 : Fin 1)) = _
  rw [chain_apply m c 511, show (511 + 1 : ℕ) = 512 from rfl, Finset.sum_range (fun t => P m c t)]
  unfold P
  rw [Cert.LibTiles.tiles_sum (fun R C => kTerm (Xn m c R 0) (Xn m c R 1) (Xn m c C 0) (Xn m c C 1))]
  refine congrArg _ (Finset.sum_congr rfl fun R _ => Finset.sum_congr rfl fun C _ => ?_)
  unfold Xn
  simp only [dif_pos R.isLt, dif_pos C.isLt]

end Cert.KernelIdeal.Hand

end
-- ==== Proof.KernelIdealTail.lean ====
import proofs.«134232_j81690277970638_1_alg».proof.Proof.KernelIdealKit
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region, as one function

After the region the program turns the pair sum `S` into the loss: `part = S - N`, the per-pair embeddings
`x_i = eps_i * exp(lv[i] / 2) + mu[i]` and `x_j` likewise (rows gathered at the pair's indices, a negative index
wrapped by `N` first), `q = (1 / (1 + |x_i - x_j|^2)) / part`, and `sum p * (log p - log q) + kld * 1e-7`. The
reference ends with the same lines, so both results are this one function of the pair sum, the divergence term
`kld` and the arguments; the function is never opened. -/

set_option maxHeartbeats 16000000 in
/-- The loss from the pair sum `main_v15`, the divergence term `main_v12` and the arguments. -/
noncomputable def lossOf (main_v15 : (⟨S_, .f32⟩ : BufTy).Contents (Elt F)) (main_v12 : (⟨S_, .f32⟩ : BufTy).Contents (Elt F)) (main_arg0 : (⟨S65536, .f32⟩ : BufTy).Contents (Elt F)) (main_arg1 main_arg2 : (⟨S65536, .i32⟩ : BufTy).Contents (Elt F)) (main_arg3 main_arg4 : (⟨S16384x2, .f32⟩ : BufTy).Contents (Elt F)) (main_arg6 main_arg7 : (⟨S65536x2, .f32⟩ : BufTy).Contents (Elt F)) : (⟨S_, .f32⟩ : BufTy).Contents (Elt F) :=
  let main_cst_3 := ((constant S_ .f32 0x46800000#32) : (⟨S_, .f32⟩ : BufTy).Contents (Elt F))
  let main_v16 := (subf : (⟨S_, .f32⟩ : BufTy).Contents (Elt F) → (⟨S_, .f32⟩ : BufTy).Contents (Elt F) → (⟨S_, .f32⟩ : BufTy).Contents (Elt F)) main_v15 main_cst_3
  let main_c := ((constantI S_ 32 0#32) : (⟨S_, .i32⟩ : BufTy).Contents (Elt F))
  let main_v17 := (broadcastInDim S65536 ![] bcast_S_S65536 : (⟨S_, .i32⟩ : BufTy).Contents (Elt F) → (⟨S65536, .i32⟩ : BufTy).Contents (Elt F)) main_c
  let main_v18 := (cmpi .slt : (⟨S65536, .i32⟩ : BufTy).Contents (Elt F) → (⟨S65536, .i32⟩ : BufTy).Contents (Elt F) → (⟨S65536, .i1⟩ : BufTy).Contents (Elt F)) main_arg1 main_v17
  let main_c_4 := ((constantI S_ 32 16384#32) : (⟨S_, .i32⟩ : BufTy).Contents (Elt F))
  let main_v19 := (broadcastInDim S65536 ![] bcast_S_S65536 : (⟨S_, .i32⟩ : BufTy).Contents (Elt F) → (⟨S65536, .i32⟩ : BufTy).Contents (Elt F)) main_c_4
  let main_v20 := (addi : (⟨S65536, .i32⟩ : BufTy).Contents (Elt F) → (⟨S65536, .i32⟩ : BufTy).Contents (Elt F) → (⟨S65536, .i32⟩ : BufTy).Contents (Elt F)) main_arg1 main_v19
  let main_v21 := (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) main_v18 main_v20 main_arg1
  let main_v22 := (broadcastInDim S65536x1 ![0] bcast_S65536_S65536x1_0 : (⟨S65536, .i32⟩ : BufTy).Contents (Elt F) → (⟨S65536x1, .i32⟩ : BufTy).Contents (Elt F)) main_v21
  let main_v23 := ((fun x i => Host.gather gather_S16384x2_S65536x1_S65536x2_1_0_n_n_0_1_12 x i) : (⟨S16384x2, .f32⟩ : BufTy).Contents (Elt F) → (⟨S65536x1, .i32⟩ : BufTy).Contents (Elt F) → (⟨S65536x2, .f32⟩ : BufTy).Contents (Elt F)) main_arg3 main_v22
  let main_c_5 := ((constantI S_ 32 0#32) : (⟨S_, .i32⟩ : BufTy).Contents (Elt F))
  let main_v24 := (broadcastInDim S65536 ![] bcast_S_S65536 : (⟨S_, .i32⟩ : BufTy).Contents (Elt F) → (⟨S65536, .i32⟩ : BufTy).Contents (Elt F)) main_c_5
  let main_v25 := (cmpi .slt : (⟨S65536, .i32⟩ : BufTy).Contents (Elt F) → (⟨S65536, .i32⟩ : BufTy).Contents (Elt F) → (⟨S65536, .i1⟩ : BufTy).Contents (Elt F)) main_arg1 main_v24
  let main_c_6 := ((constantI S_ 32 16384#32) : (⟨S_, .i32⟩ : BufTy).Contents (Elt F))
  let main_v26 := (broadcastInDim S65536 ![] bcast_S_S65536 : (⟨S_, .i32⟩ : BufTy).Contents (Elt F) → (⟨S65536, .i32⟩ : BufTy).Contents (Elt F)) main_c_6
  let main_v27 := (addi : (⟨S65536, .i32⟩ : BufTy).Contents (Elt F) → (⟨S65536, .i32⟩ : BufTy).Contents (Elt F) → (⟨S65536, .i32⟩ : BufTy).Contents (Elt F)) main_arg1 main_v26
  let main_v28 := (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) main_v25 main_v27 main_arg1
  let main_v29 := (broadcastInDim S65536x1 ![0] bcast_S65536_S65536x1_0 : (⟨S65536, .i32⟩ : BufTy).Contents (Elt F) → (⟨S65536x1, .i32⟩ : BufTy).Contents (Elt F)) main_v28
  let main_v30 := ((fun x i => Host.gather gather_S16384x2_S65536x1_S65536x2_1_0_n_n_0_1_12 x i) : (⟨S16384x2, .f32⟩ : BufTy).Contents (Elt F) → (⟨S65536x1, .i32⟩ : BufTy).Contents (Elt F) → (⟨S65536x2, .f32⟩ : BufTy).Contents (Elt F)) main_arg4 main_v29
  let main_cst_7 := ((constant S_ .f32 0x3F000000#32) : (⟨S_, .f32⟩ : BufTy).Contents (Elt F))
  let main_v31 := (broadcastInDim S65536x2 ![] bcast_S_S65536x2 : (⟨S_, .f32⟩ : BufTy).Contents (Elt F) → (⟨S65536x2, .f32⟩ : BufTy).Contents (Elt F)) main_cst_7
  let main_v32 := (mulf : (⟨S65536x2, .f32⟩ : BufTy).Contents (Elt F) → (⟨S65536x2, .f32⟩ : BufTy).Contents (Elt F) → (⟨S65536x2, .f32⟩ : BufTy).Contents (Elt F)) main_v31 main_v30
  let main_v33 := (Host.exp : (⟨S65536x2, .f32⟩ : BufTy).Contents (Elt F) → (⟨S65536x2, .f32⟩ : BufTy).Contents (Elt F)) main_v32
  let main_v34 := (mulf : (⟨S65536x2, .f32⟩ : BufTy).Contents (Elt F) → (⟨S65536x2, .f32⟩ : BufTy).Contents (Elt F) → (⟨S65536x2, .f32⟩ : BufTy).Contents (Elt F)) main_arg6 main_v33
  let main_v35 := (addf : (⟨S65536x2, .f32⟩ : BufTy).Contents (Elt F) → (⟨S65536x2, .f32⟩ : BufTy).Contents (Elt F) → (⟨S65536x2, .f32⟩ : BufTy).Contents (Elt F)) main_v34 main_v23
  let main_cst_8 := ((constant S_ .f32 0x3F800000#32) : (⟨S_, .f32⟩ : BufTy).Contents (Elt F))
  let main_v36 := (broadcastInDim S65536x2 ![] bcast_S_S65536x2 : (⟨S_, .f32⟩ : BufTy).Contents (Elt F) → (⟨S65536x2, .f32⟩ : BufTy).Contents (Elt F)) main_cst_8
  let main_v37 := (addf : (⟨S65536x2, .f32⟩ : BufTy).Contents (Elt F) → (⟨S65536x2, .f32⟩ : BufTy).Contents (Elt F) → (⟨S65536x2, .f32⟩ : BufTy).Contents (Elt F)) main_v36 main_v30
  let main_v38 := (mulf : (⟨S65536x2, .f32⟩ : BufTy).Contents (Elt F) → (⟨S65536x2, .f32⟩ : BufTy).Contents (Elt F) → (⟨S65536x2, .f32⟩ : BufTy).Contents (Elt F)) main_v23 main_v23
  let main_v39 := (subf : (⟨S65536x2, .f32⟩ : BufTy).Contents (Elt F) → (⟨S65536x2, .f32⟩ : BufTy).Contents (Elt F) → (⟨S65536x2, .f32⟩ : BufTy).Contents (Elt F)) main_v37 main_v38
  let main_v40 := (Host.exp : (⟨S65536x2, .f32⟩ : BufTy).Contents (Elt F) → (⟨S65536x2, .f32⟩ : BufTy).Contents (Elt F)) main_v30
  let main_v41 := (subf : (⟨S65536x2, .f32⟩ : BufTy).Contents (Elt F) → (⟨S65536x2, .f32⟩ : BufTy).Contents (Elt F) → (⟨S65536x2, .f32⟩ : BufTy).Contents (Elt F)) main_v39 main_v40
  let main_cst_9 := ((constant S_ .f32 0x00000000#32) : (⟨S_, .f32⟩ : BufTy).Contents (Elt F))
  let main_v42 := ((fun x v => Host.reduceAdd x v reducesTo_S65536x2_S_d0_1 h_S_) : (⟨S65536x2, .f32⟩ : BufTy).Contents (Elt F) → (⟨S_, .f32⟩ : BufTy).Contents (Elt F) → (⟨S_, .f32⟩ : BufTy).Contents (Elt F)) main_v41 main_cst_9
  let main_cst_10 := ((constant S_ .f32 0xBF000000#32) : (⟨S_, .f32⟩ : BufTy).Contents (Elt F))
  let main_v43 := (mulf : (⟨S_, .f32⟩ : BufTy).Contents (Elt F) → (⟨S_, .f32⟩ : BufTy).Contents (Elt F) → (⟨S_, .f32⟩ : BufTy).Contents (Elt F)) main_cst_10 main_v42
  let main_c_11 := ((constantI S_ 32 0#32) : (⟨S_, .i32⟩ : BufTy).Contents (Elt F))
  let main_v44 := (broadcastInDim S65536 ![] bcast_S_S65536 : (⟨S_, .i32⟩ : BufTy).Contents (Elt F) → (⟨S65536, .i32⟩ : BufTy).Contents (Elt F)) main_c_11
  let main_v45 := (cmpi .slt : (⟨S65536, .i32⟩ : BufTy).Contents (Elt F) → (⟨S65536, .i32⟩ : BufTy).Contents (Elt F) → (⟨S65536, .i1⟩ : BufTy).Contents (Elt F)) main_arg2 main_v44
  let main_c_12 := ((constantI S_ 32 16384#32) : (⟨S_, .i32⟩ : BufTy).Contents (Elt F))
  let main_v46 := (broadcastInDim S65536 ![] bcast_S_S65536 : (⟨S_, .i32⟩ : BufTy).Contents (Elt F) → (⟨S65536, .i32⟩ : BufTy).Contents (Elt F)) main_c_12
  let main_v47 := (addi : (⟨S65536, .i32⟩ : BufTy).Contents (Elt F) → (⟨S65536, .i32⟩ : BufTy).Contents (Elt F) → (⟨S65536, .i32⟩ : BufTy).Contents (Elt F)) main_arg2 main_v46
  let main_v48 := (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) main_v45 main_v47 main_arg2
  let main_v49 := (broadcastInDim S65536x1 ![0] bcast_S65536_S65536x1_0 : (⟨S65536, .i32⟩ : BufTy).Contents (Elt F) → (⟨S65536x1, .i32⟩ : BufTy).Contents (Elt F)) main_v48
  let main_v50 := ((fun x i => Host.gather gather_S16384x2_S65536x1_S65536x2_1_0_n_n_0_1_12 x i) : (⟨S16384x2, .f32⟩ : BufTy).Contents (Elt F) → (⟨S65536x1, .i32⟩ : BufTy).Contents (Elt F) → (⟨S65536x2, .f32⟩ : BufTy).Contents (Elt F)) main_arg3 main_v49
  let main_c_13 := ((constantI S_ 32 0#32) : (⟨S_, .i32⟩ : BufTy).Contents (Elt F))
  let main_v51 := (broadcastInDim S65536 ![] bcast_S_S65536 : (⟨S_, .i32⟩ : BufTy).Contents (Elt F) → (⟨S65536, .i32⟩ : BufTy).Contents (Elt F)) main_c_13
  let main_v52 := (cmpi .slt : (⟨S65536, .i32⟩ : BufTy).Contents (Elt F) → (⟨S65536, .i32⟩ : BufTy).Contents (Elt F) → (⟨S65536, .i1⟩ : BufTy).Contents (Elt F)) main_arg2 main_v51
  let main_c_14 := ((constantI S_ 32 16384#32) : (⟨S_, .i32⟩ : BufTy).Contents (Elt F))
  let main_v53 := (broadcastInDim S65536 ![] bcast_S_S65536 : (⟨S_, .i32⟩ : BufTy).Contents (Elt F) → (⟨S65536, .i32⟩ : BufTy).Contents (Elt F)) main_c_14
  let main_v54 := (addi : (⟨S65536, .i32⟩ : BufTy).Contents (Elt F) → (⟨S65536, .i32⟩ : BufTy).Contents (Elt F) → (⟨S65536, .i32⟩ : BufTy).Contents (Elt F)) main_arg2 main_v53
  let main_v55 := (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) main_v52 main_v54 main_arg2
  let main_v56 := (broadcastInDim S65536x1 ![0] bcast_S65536_S65536x1_0 : (⟨S65536, .i32⟩ : BufTy).Contents (Elt F) → (⟨S65536x1, .i32⟩ : BufTy).Contents (Elt F)) main_v55
  let main_v57 := ((fun x i => Host.gather gather_S16384x2_S65536x1_S65536x2_1_0_n_n_0_1_12 x i) : (⟨S16384x2, .f32⟩ : BufTy).Contents (Elt F) → (⟨S65536x1, .i32⟩ : BufTy).Contents (Elt F) → (⟨S65536x2, .f32⟩ : BufTy).Contents (Elt F)) main_arg4 main_v56
  let main_cst_15 := ((constant S_ .f32 0x3F000000#32) : (⟨S_, .f32⟩ : BufTy).Contents (Elt F))
  let main_v58 := (broadcastInDim S65536x2 ![] bcast_S_S65536x2 : (⟨S_, .f32⟩ : BufTy).Contents (Elt F) → (⟨S65536x2, .f32⟩ : BufTy).Contents (Elt F)) main_cst_15
  let main_v59 := (mulf : (⟨S65536x2, .f32⟩ : BufTy).Contents (Elt F) → (⟨S65536x2, .f32⟩ : BufTy).Contents (Elt F) → (⟨S65536x2, .f32⟩ : BufTy).Contents (Elt F)) main_v58 main_v57
  let main_v60 := (Host.exp : (⟨S65536x2, .f32⟩ : BufTy).Contents (Elt F) → (⟨S65536x2, .f32⟩ : BufTy).Contents (Elt F)) main_v59
  let main_v61 := (mulf : (⟨S65536x2, .f32⟩ : BufTy).Contents (Elt F) → (⟨S65536x2, .f32⟩ : BufTy).Contents (Elt F) → (⟨S65536x2, .f32⟩ : BufTy).Contents (Elt F)) main_arg7 main_v60
  let main_v62 := (addf : (⟨S65536x2, .f32⟩ : BufTy).Contents (Elt F) → (⟨S65536x2, .f32⟩ : BufTy).Contents (Elt F) → (⟨S65536x2, .f32⟩ : BufTy).Contents (Elt F)) main_v61 main_v50
  let main_cst_16 := ((constant S_ .f32 0x3F800000#32) : (⟨S_, .f32⟩ : BufTy).Contents (Elt F))
  let main_v63 := (broadcastInDim S65536x2 ![] bcast_S_S65536x2 : (⟨S_, .f32⟩ : BufTy).Contents (Elt F) → (⟨S65536x2, .f32⟩ : BufTy).Contents (Elt F)) main_cst_16
  let main_v64 := (addf : (⟨S65536x2, .f32⟩ : BufTy).Contents (Elt F) → (⟨S65536x2, .f32⟩ : BufTy).Contents (Elt F) → (⟨S65536x2, .f32⟩ : BufTy).Contents (Elt F)) main_v63 main_v57
  let main_v65 := (mulf : (⟨S65536x2, .f32⟩ : BufTy).Contents (Elt F) → (⟨S65536x2, .f32⟩ : BufTy).Contents (Elt F) → (⟨S65536x2, .f32⟩ : BufTy).Contents (Elt F)) main_v50 main_v50
  let main_v66 := (subf : (⟨S65536x2, .f32⟩ : BufTy).Contents (Elt F) → (⟨S65536x2, .f32⟩ : BufTy).Contents (Elt F) → (⟨S65536x2, .f32⟩ : BufTy).Contents (Elt F)) main_v64 main_v65
  let main_v67 := (Host.exp : (⟨S65536x2, .f32⟩ : BufTy).Contents (Elt F) → (⟨S65536x2, .f32⟩ : BufTy).Contents (Elt F)) main_v57
  let main_v68 := (subf : (⟨S65536x2, .f32⟩ : BufTy).Contents (Elt F) → (⟨S65536x2, .f32⟩ : BufTy).Contents (Elt F) → (⟨S65536x2, .f32⟩ : BufTy).Contents (Elt F)) main_v66 main_v67
  let main_cst_17 := ((constant S_ .f32 0x00000000#32) : (⟨S_, .f32⟩ : BufTy).Contents (Elt F))
  let main_v69 := ((fun x v => Host.reduceAdd x v reducesTo_S65536x2_S_d0_1 h_S_) : (⟨S65536x2, .f32⟩ : BufTy).Contents (Elt F) → (⟨S_, .f32⟩ : BufTy).Contents (Elt F) → (⟨S_, .f32⟩ : BufTy).Contents (Elt F)) main_v68 main_cst_17
  let main_cst_18 := ((constant S_ .f32 0xBF000000#32) : (⟨S_, .f32⟩ : BufTy).Contents (Elt F))
  let main_v70 := (mulf : (⟨S_, .f32⟩ : BufTy).Contents (Elt F) → (⟨S_, .f32⟩ : BufTy).Contents (Elt F) → (⟨S_, .f32⟩ : BufTy).Contents (Elt F)) main_cst_18 main_v69
  let main_v71 := (subf : (⟨S65536x2, .f32⟩ : BufTy).Contents (Elt F) → (⟨S65536x2, .f32⟩ : BufTy).Contents (Elt F) → (⟨S65536x2, .f32⟩ : BufTy).Contents (Elt F)) main_v35 main_v62
  let main_v72 := (mulf : (⟨S65536x2, .f32⟩ : BufTy).Contents (Elt F) → (⟨S65536x2, .f32⟩ : BufTy).Contents (Elt F) → (⟨S65536x2, .f32⟩ : BufTy).Contents (Elt F)) main_v71 main_v71
  let main_cst_19 := ((constant S_ .f32 0x00000000#32) : (⟨S_, .f32⟩ : BufTy).Contents (Elt F))
  let main_v73 := ((fun x v => Host.reduceAdd x v reducesTo_S65536x2_S65536_d1 h_S_) : (⟨S65536x2, .f32⟩ : BufTy).Contents (Elt F) → (⟨S_, .f32⟩ : BufTy).Contents (Elt F) → (⟨S65536, .f32⟩ : BufTy).Contents (Elt F)) main_v72 main_cst_19
  let main_cst_20 := ((constant S_ .f32 0x3F800000#32) : (⟨S_, .f32⟩ : BufTy).Contents (Elt F))
  let main_v74 := (broadcastInDim S65536 ![] bcast_S_S65536 : (⟨S_, .f32⟩ : BufTy).Contents (Elt F) → (⟨S65536, .f32⟩ : BufTy).Contents (Elt F)) main_cst_20
  let main_v75 := (addf : (⟨S65536, .f32⟩ : BufTy).Contents (Elt F) → (⟨S65536, .f32⟩ : BufTy).Contents (Elt F) → (⟨S65536, .f32⟩ : BufTy).Contents (Elt F)) main_v74 main_v73
  let main_cst_21 := ((constant S_ .f32 0x3F800000#32) : (⟨S_, .f32⟩ : BufTy).Contents (Elt F))
  let main_v76 := (broadcastInDim S65536 ![] bcast_S_S65536 : (⟨S_, .f32⟩ : BufTy).Contents (Elt F) → (⟨S65536, .f32⟩ : BufTy).Contents (Elt F)) main_cst_21
  let main_v77 := (Host.divf : (⟨S65536, .f32⟩ : BufTy).Contents (Elt F) → (⟨S65536, .f32⟩ : BufTy).Contents (Elt F) → (⟨S65536, .f32⟩ : BufTy).Contents (Elt F)) main_v76 main_v75
  let main_v78 := (broadcastInDim S65536 ![] bcast_S_S65536 : (⟨S_, .f32⟩ : BufTy).Contents (Elt F) → (⟨S65536, .f32⟩ : BufTy).Contents (Elt F)) main_v16
  let main_v79 := (Host.divf : (⟨S65536, .f32⟩ : BufTy).Contents (Elt F) → (⟨S65536, .f32⟩ : BufTy).Contents (Elt F) → (⟨S65536, .f32⟩ : BufTy).Contents (Elt F)) main_v77 main_v78
  let main_v80 := (Host.log : (⟨S65536, .f32⟩ : BufTy).Contents (Elt F) → (⟨S65536, .f32⟩ : BufTy).Contents (Elt F)) main_arg0
  let main_v81 := (Host.log : (⟨S65536, .f32⟩ : BufTy).Contents (Elt F) → (⟨S65536, .f32⟩ : BufTy).Contents (Elt F)) main_v79
  let main_v82 := (subf : (⟨S65536, .f32⟩ : BufTy).Contents (Elt F) → (⟨S65536, .f32⟩ : BufTy).Contents (Elt F) → (⟨S65536, .f32⟩ : BufTy).Contents (Elt F)) main_v80 main_v81
  let main_v83 := (mulf : (⟨S65536, .f32⟩ : BufTy).Contents (Elt F) → (⟨S65536, .f32⟩ : BufTy).Contents (Elt F) → (⟨S65536, .f32⟩ : BufTy).Contents (Elt F)) main_arg0 main_v82
  let main_cst_22 := ((constant S_ .f32 0x00000000#32) : (⟨S_, .f32⟩ : BufTy).Contents (Elt F))
  let main_v84 := ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)) main_v83 main_cst_22
  let main_cst_23 := ((constant S_ .f32 0x33D6BF95#32) : (⟨S_, .f32⟩ : BufTy).Contents (Elt F))
  let main_v85 := (mulf : (⟨S_, .f32⟩ : BufTy).Contents (Elt F) → (⟨S_, .f32⟩ : BufTy).Contents (Elt F) → (⟨S_, .f32⟩ : BufTy).Contents (Elt F)) main_v12 main_cst_23
  let main_v86 := (addf : (⟨S_, .f32⟩ : BufTy).Contents (Elt F) → (⟨S_, .f32⟩ : BufTy).Contents (Elt F) → (⟨S_, .f32⟩ : BufTy).Contents (Elt F)) main_v84 main_v85
  main_v86

set_option maxHeartbeats 64000000 in
/-- The later lines, run from any contents `W`, leave the loss of `W`'s pair sum (the region's one-element result,
    read as a scalar), divergence term and arguments in the result buffer. -/
theorem tail_after (W : Valuation τ sig (Elt F)) :
    StableHlo.after hostOps1 W (Proc.devRef .tc main_v86)
      = lossOf (shapeCast S_ (W (Proc.devRef .tc main_v14)) shapeCasts_S1x1_S_) (W (Proc.devRef .tc main_v12))
          (W (Proc.devRef .tc main_arg0)) (W (Proc.devRef .tc main_arg1)) (W (Proc.devRef .tc main_arg2))
          (W (Proc.devRef .tc main_arg3)) (W (Proc.devRef .tc main_arg4)) (W (Proc.devRef .tc main_arg6)) (W (Proc.devRef .tc main_arg7)) := by
  dsimp only [hostOps1]
  after_results_simp <;> (unfold lossOf; rfl)

end Cert.KernelIdeal.Hand

end
-- ==== Proof.RefTotal.lean ====
import proofs.«134232_j81690277970638_1_alg».proof.Proof.Gen.ReferenceIdeal.Read
import Idealize.ShloMosaic.Lib.ValueIdx
import proofs.«134232_j81690277970638_1_alg».proof.Proof.PairLaw

/-!
The reference's total, read pair by pair.

The reference forms the squared distance of points `R` and `C` in the Gram form
`max ((|x_R|² + |x_C|²) - 2⟨x_R, x_C⟩, 0)`, takes `1 / (1 + ·)` and sums over the whole square array. For real
coordinates each entry is the pair's term written with squared coordinate differences, so the total is the zero
word's value plus the double sum of those terms. The embedding `x = eps · exp (½ · lv) + mu` is real whenever
its three arguments are.
-/

noncomputable section

namespace Cert.ReferenceIdeal.RefValue

open Cert.ReferenceIdeal Cert.ReferenceIdeal.Gen Cert.ReferenceIdeal.Read Idealize.ShloMosaic

/-- Row `R`'s squared norm reads coordinate `k` of point `R`. -/
theorem idx_row (R C : Fin 16384) (k : Fin 2) :
    idx_main_v14 (idx_main_v15 (idx_main_v17 (ValueIdx.ix2 R C))) k = ValueIdx.ix2 R k := by
  funext a; match a with | ⟨0, _⟩ => rfl | ⟨1, _⟩ => rfl

/-- Column `C`'s squared norm reads coordinate `k` of point `C`. -/
theorem idx_col (R C : Fin 16384) (k : Fin 2) :
    idx_main_v14 (idx_main_v16 (idx_main_v18 (ValueIdx.ix2 R C))) k = ValueIdx.ix2 C k := by
  funext a; match a with | ⟨0, _⟩ => rfl | ⟨1, _⟩ => rfl

/-- The inner product's left factor at `(R, C)` reads coordinate `k` of point `R`. -/
theorem idx_l (R C : Fin 16384) (k : Fin 2) :
    lidx_main_v21 (ValueIdx.ix2 R C) k = ValueIdx.ix2 R k := by
  funext a; match a with | ⟨0, _⟩ => rfl | ⟨1, _⟩ => rfl

/-- The inner product's right factor at `(R, C)`, through the transpose, reads coordinate `k` of point `C`. -/
theorem idx_r (R C : Fin 16384) (k : Fin 2) :
    idx_main_v20 (ridx_main_v21 (ValueIdx.ix2 R C) k) = ValueIdx.ix2 C k := by
  funext a; match a with | ⟨0, _⟩ => rfl | ⟨1, _⟩ => rfl

/-- The reference's entry at `(R, C)` is the pair's term in the Gram form. -/
theorem v30_at (x3 x4 x5 : (⟨S16384x2, .f32⟩ : BufTy).Contents (Elt Ideal)) (R C : Fin 16384) :
    val_main_v30 (F := Ideal) x3 x4 x5 (ValueIdx.ix2 R C)
      = Cert.PairLaw.rTerm (val_main_v4 (F := Ideal) x3 x4 x5 (ValueIdx.ix2 R (0 : Fin 2))) (val_main_v4 (F := Ideal) x3 x4 x5 (ValueIdx.ix2 R (1 : Fin 2)))
          (val_main_v4 (F := Ideal) x3 x4 x5 (ValueIdx.ix2 C (0 : Fin 2))) (val_main_v4 (F := Ideal) x3 x4 x5 (ValueIdx.ix2 C (1 : Fin 2))) := by
  rw [val_main_v30_apply, val_main_v29_apply, val_main_cst_7_apply, val_main_v28_apply, val_main_v27_apply,
    val_main_cst_6_apply, val_main_v26_apply, val_main_v25_apply, val_main_cst_5_apply, val_main_v24_apply,
    val_main_v23_apply, val_main_v22_apply, val_main_cst_4_apply, val_main_v21_apply, val_main_v19_apply,
    val_main_v17_apply, val_main_v18_apply, val_main_v15_apply, val_main_v16_apply, val_main_v14_apply,
    val_main_v14_apply, val_main_cst_3_apply]
  simp only [Fin.sum_univ_two, val_main_v20_apply, val_main_v13_apply, idx_row, idx_col, idx_l, idx_r]
  rfl

/-- The reference's total is the zero word's value plus the sum over all pairs of the pair's term, when every
coordinate of the embedding is a real number: the Gram form of each squared distance is then the sum of the
squared coordinate differences. -/
theorem total_eq (x3 x4 x5 : (⟨S16384x2, .f32⟩ : BufTy).Contents (Elt Ideal))
    (hfin : ∀ j : S16384x2.Idx, ∃ r : ℝ, val_main_v4 (F := Ideal) x3 x4 x5 j = (r : EReal)) (i : S_.Idx) :
    val_main_v31 (F := Ideal) x3 x4 x5 i
      = Ideal.ofBits .f32 0x00000000#32 + ∑ R : Fin 16384, ∑ C : Fin 16384,
          Cert.PairLaw.kTerm (val_main_v4 (F := Ideal) x3 x4 x5 (ValueIdx.ix2 R (0 : Fin 2))) (val_main_v4 (F := Ideal) x3 x4 x5 (ValueIdx.ix2 R (1 : Fin 2)))
                             (val_main_v4 (F := Ideal) x3 x4 x5 (ValueIdx.ix2 C (0 : Fin 2))) (val_main_v4 (F := Ideal) x3 x4 x5 (ValueIdx.ix2 C (1 : Fin 2))) := by
  rw [val_main_v31_apply, val_main_cst_8_apply, ValueIdx.sum_idx2]
  refine congrArg (_ + ·) (Finset.sum_congr rfl fun R _ => Finset.sum_congr rfl fun C _ => ?_)
  rw [v30_at]
  obtain ⟨a0, h0⟩ := hfin (ValueIdx.ix2 R (0 : Fin 2))
  obtain ⟨a1, h1⟩ := hfin (ValueIdx.ix2 R (1 : Fin 2))
  obtain ⟨b0, h2⟩ := hfin (ValueIdx.ix2 C (0 : Fin 2))
  obtain ⟨b1, h3⟩ := hfin (ValueIdx.ix2 C (1 : Fin 2))
  rw [h0, h1, h2, h3]
  exact Cert.PairLaw.rTerm_eq_kTerm a0 a1 b0 b1

/-- The f32 word `0x3F000000` denotes the real number one half. -/
theorem half_f32 : Ideal.ofBits .f32 0x3F000000#32 = ((1 / 2 : ℝ) : EReal) := by
  simp [Ideal.ofBits, Ideal.ieee]
  rw [← EReal.coe_mul]
  congr 1
  norm_num

/-- The embedding `x = eps · exp (½ · lv) + mu` is a real number at every index where `mu`, `lv` and `eps` are. -/
theorem x_real (x3 x4 x5 : (⟨S16384x2, .f32⟩ : BufTy).Contents (Elt Ideal))
    (h3 : ∀ j, ∃ r : ℝ, x3 j = (r : EReal)) (h4 : ∀ j, ∃ r : ℝ, x4 j = (r : EReal)) (h5 : ∀ j, ∃ r : ℝ, x5 j = (r : EReal)) :
    ∀ j : S16384x2.Idx, ∃ r : ℝ, val_main_v4 (F := Ideal) x3 x4 x5 j = (r : EReal) := by
  intro j
  obtain ⟨r3, e3⟩ := h3 j
  obtain ⟨r4, e4⟩ := h4 j
  obtain ⟨r5, e5⟩ := h5 j
  refine ⟨r5 * Real.exp (1 / 2 * r4) + r3, ?_⟩
  rw [val_main_v4_apply, val_main_v3_apply, val_main_v2_apply, val_main_v1_apply, val_main_v0_apply, val_main_cst_apply,
    e3, e4, e5]
  simp only [Ideal.ofBits_def, Ideal.addf_def, Ideal.mulf_def, Ideal.hostUnary_exp_def]
  rw [half_f32, ← EReal.coe_mul, Ideal.exp_coe, ← EReal.coe_mul, ← EReal.coe_add]

end Cert.ReferenceIdeal.RefValue
-- ==== Proof.KernelIdealResult.lean ====
import proofs.«134232_j81690277970638_1_alg».proof.Proof.KernelIdealTotal
import proofs.«134232_j81690277970638_1_alg».proof.Proof.KernelIdealTail
import proofs.«134232_j81690277970638_1_alg».proof.Proof.RefTotal

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.PairLaw

/-! ## The kernel's result is the reference's

Both programs compute the embedding `x` and the divergence term by the same host lines, and end with the same lines
after the pair sum; so the results agree once the pair sums do — the region's tile-by-tile sum of
`1 / (1 + |x_R - x_C|^2)` against the reference's sum of `1 / (1 + max(|x_R|^2 + |x_C|^2 - 2 <x_R, x_C>, 0))` over the
whole square, equal at every pair because `x` is real. -/

/-- The embedding the region finds is the reference's embedding of the same arguments. -/
theorem V4_eq (c : Dev nD) : V m c main_v4
    = Cert.ReferenceIdeal.Read.val_main_v4 (F := Ideal) (m ((c.tc : Thread nD τ).loc main_arg3)) (m ((c.tc : Thread nD τ).loc main_arg4)) (m ((c.tc : Thread nD τ).loc main_arg5)) := by
  dsimp only [V, V0]
  simp only [hostOps0, List.flatten_cons, List.flatten_nil, List.append_nil]
  after_results_simp <;> rfl

/-- The divergence term the region passes by is the reference's. -/
theorem V12_eq (c : Dev nD) : V m c main_v12
    = Cert.ReferenceIdeal.Read.val_main_v12 (F := Ideal) (m ((c.tc : Thread nD τ).loc main_arg3)) (m ((c.tc : Thread nD τ).loc main_arg4)) := by
  dsimp only [V, V0]
  simp only [hostOps0, List.flatten_cons, List.flatten_nil, List.append_nil]
  after_results_simp <;> rfl

/-- The contents the later host lines start from: the region's arrays as the run left them, the rest as the region
    found it. -/
def Wexit (c : Dev nD) : Valuation τ sig (Elt Ideal) :=
  Pipeline.withArrays (cfgs 0).spec c (V0 m c) fun w => (dats m 0 c).arrAt w (cfgs 0).N

theorem Wexit_v14 (c : Dev nD) : Wexit m c (Proc.devRef .tc main_v14) = result m c :=
  (Pipeline.withArrays_arr spec0 launch0.win.arr_inj c _ _ 2).trans (final_o m c)
theorem Wexit_v12 (c : Dev nD) : Wexit m c (Proc.devRef .tc main_v12) = V m c main_v12 :=
  Pipeline.withArrays_of_ne _ c (V0 m c) _ main_v12 (by exact (by decide : ∀ w, Pipeline.arrRef spec0 w ≠ main_v12))
theorem Wexit_a0 (c : Dev nD) : Wexit m c (Proc.devRef .tc main_arg0) = m ((c.tc : Thread nD τ).loc main_arg0) :=
  (Pipeline.withArrays_of_ne _ c (V0 m c) _ main_arg0 (by exact (by decide : ∀ w, Pipeline.arrRef spec0 w ≠ main_arg0))).trans (V_main_arg0 m c)
theorem Wexit_a1 (c : Dev nD) : Wexit m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem Wexit_a2 (c : Dev nD) : Wexit m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem Wexit_a3 (c : Dev nD) : Wexit m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem Wexit_a4 (c : Dev nD) : Wexit m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem Wexit_a6 (c : Dev nD) : Wexit m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem Wexit_a7 (c : Dev nD) : Wexit m c (Proc.devRef .tc main_arg7) = m ((c.tc : Thread nD τ).loc main_arg7) :=
  (Pipeline.withArrays_of_ne _ c (V0 m c) _ main_arg7 (by exact (by decide : ∀ w, Pipeline.arrRef spec0 w ≠ main_arg7))).trans (V_main_arg7 m c)

set_option maxHeartbeats 4000000 in
/-- The kernel's result: the loss of the region's pair sum. -/
theorem kernel_result (c : Dev nD) :
    Pipeline.afterTail₀ cfgs (dats m) 0 (V0 m) [hostOps1] c main_v86
      = lossOf (shapeCast S_ (result m c) shapeCasts_S1x1_S_) (V m c main_v12) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  show StableHlo.after hostOps1 (Wexit m c) (Proc.devRef .tc main_v86) = _
  rw [tail_after, Wexit_v14, Wexit_v12, Wexit_a0, Wexit_a1, Wexit_a2, Wexit_a3, Wexit_a4, Wexit_a6, Wexit_a7]

set_option maxHeartbeats 16000000 in
set_option maxRecDepth 65536 in
/-- The reference's result is the same function of its pair sum, its divergence term and the arguments. -/
theorem ref_result (x0 : (⟨S65536, .f32⟩ : BufTy).Contents (Elt Ideal)) (x1 x2 : (⟨S65536, .i32⟩ : BufTy).Contents (Elt Ideal))
    (x3 x4 x5 : (⟨S16384x2, .f32⟩ : BufTy).Contents (Elt Ideal)) (x6 x7 : (⟨S65536x2, .f32⟩ : BufTy).Contents (Elt Ideal)) :
    Cert.ReferenceIdeal.Read.val_main_v102 (F := Ideal) x0 x1 x2 x3 x4 x5 x6 x7
      = lossOf (Cert.ReferenceIdeal.Read.val_main_v31 (F := Ideal) x3 x4 x5) (Cert.ReferenceIdeal.Read.val_main_v12 (F := Ideal) x3 x4) x0 x1 x2 x3 x4 x6 x7 := by
  unfold lossOf
  rfl

/-- The two pair sums agree, the embedding being real. -/
theorem total_agree (c : Dev nD)
    (hfin : ∀ j, ∃ r : ℝ, Cert.ReferenceIdeal.Read.val_main_v4 (F := Ideal) (m ((c.tc : Thread nD τ).loc main_arg3)) (m ((c.tc : Thread nD τ).loc main_arg4)) (m ((c.tc : Thread nD τ).loc main_arg5)) j = (r : EReal)) :
    shapeCast S_ (result m c) shapeCasts_S1x1_S_
      = Cert.ReferenceIdeal.Read.val_main_v31 (F := Ideal) (m ((c.tc : Thread nD τ).loc main_arg3)) (m ((c.tc : Thread nD τ).loc main_arg4)) (m ((c.tc : Thread nD τ).loc main_arg5)) := by
  funext i
  have hk := kernel_total m c i
  rw [V4_eq] at hk
  exact hk.trans (Cert.ReferenceIdeal.RefValue.total_eq _ _ _ hfin i).symm

/-- The kernel's result is the reference's result of the same arguments. -/
theorem result_eq (c : Dev nD)
    (hfin : ∀ j, ∃ r : ℝ, Cert.ReferenceIdeal.Read.val_main_v4 (F := Ideal) (m ((c.tc : Thread nD τ).loc main_arg3)) (m ((c.tc : Thread nD τ).loc main_arg4)) (m ((c.tc : Thread nD τ).loc main_arg5)) j = (r : EReal)) :
    Pipeline.afterTail₀ cfgs (dats m) 0 (V0 m) [hostOps1] c main_v86
      = Cert.ReferenceIdeal.Read.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [kernel_result, ref_result, V12_eq, total_agree m c hfin]

/-- The kernel's run with its result named: the loss buffer at the later lines' value, the arguments unchanged. -/
theorem run_result : θ_run defs (onTc (τ := τ) (main (F := Ideal))) ⟨m, fun _ => 0, ρ⟩ (fun r => ∀ c : Dev nD,
      r.2.mem ((c.tc : Thread nD τ).loc main_v86) = Pipeline.afterTail₀ cfgs (dats m) 0 (V0 m) [hostOps1] c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v86 (Pipeline.mem_restRefs_of main_v86 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

end Cert.KernelIdeal.Hand

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.FiniteArgs.lean ====
import proofs.«134232_j81690277970638_1_alg».proof.Pre_finite_inputs
import proofs.«134232_j81690277970638_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws
import proofs.«134232_j81690277970638_1_alg».proof.Proof.LibSums

/-!
From the "every float input is finite" precondition to "every entry of the three point arrays is a real number".

The precondition is the conjunction, over the float arguments, of "every entry's absolute value is below the word of
+infinity". A conjunction of bits that is 1 has every conjunct 1; a conjunction over an array that is 1 has a 1 at
every index; and an extended real whose absolute value is below +infinity is a real number.
-/

namespace Cert.FiniteArgs

open Idealize.ShloMosaic Cert.Pre_finite_inputs Cert.Pre_finite_inputs.Gen

/-- The scalar shape has one index. -/
instance : Subsingleton S_.Idx := ⟨fun a b => funext fun d => d.elim0⟩

/-- An array all of whose entries pass "absolute value below the word of +infinity" holds a real number at every
index. -/
theorem real_of_all_finite {s : Shape} (a : FVec Ideal s .f32)
    (hb : S_.BroadcastsInDim s (![] : Fin 0 → Fin s.rank)) {axes : List (Fin s.rank)} (hr : s.ReducesTo axes S_)
    (hu : 0 < S_.numel)
    (e : Host.reduce IntOp.andi
        (cmpf CmpFPredicate.olt (Host.absf a) (broadcastInDim s ![] hb (constant (F := Ideal) S_ .f32 0x7F800000#32)))
        (constantI S_ 1 1#1) hr hu ValueIdx.ix0 = 1#1) :
    ∀ j, ∃ r : ℝ, a j = (r : EReal) := by
  intro j
  have e1 := Host.reduce_andi_all _ _ hr hu ValueIdx.ix0 e j
  have e2 : broadcastInDim s ![] hb (constant (F := Ideal) S_ .f32 0x7F800000#32) j = Ideal.ofBits .f32 0x7F800000#32 :=
    broadcastInDim_apply _ hb _ j ValueIdx.ix0 (fun a => a.elim0)
  have e3 : BitVec.ofBool (decide (max (a j) (-(a j))
      < broadcastInDim s ![] hb (constant (F := Ideal) S_ .f32 0x7F800000#32) j)) = 1#1 := e1
  rw [e2] at e3
  exact Cert.LibSums.real_of_finite_bit (a j) e3

/-- Under the finiteness precondition the three point arrays (`mu`, `lv`, `eps`) hold real numbers everywhere. -/
theorem args_real (a0 : FVec Ideal S65536 .f32) (a1 a2 : IVec S65536 32) (a3 a4 a5 : FVec Ideal S16384x2 .f32)
    (a6 a7 : FVec Ideal S65536x2 .f32)
    (h : Cert.Pre_finite_inputs.fn (F := Ideal) a0 a1 a2 a3 a4 a5 a6 a7 = (fun _ => 1#1)) :
    (∀ j, ∃ r : ℝ, a3 j = (r : EReal)) ∧ (∀ j, ∃ r : ℝ, a4 j = (r : EReal)) ∧ (∀ j, ∃ r : ℝ, a5 j = (r : EReal)) := by
  have h0 := congrFun h ValueIdx.ix0
  dsimp only [Cert.Pre_finite_inputs.fn, Cert.Pre_finite_inputs.fn_part1] at h0
  obtain ⟨h5, _⟩ := IntOp.andi_eq_one.1 h0
  obtain ⟨h4, _⟩ := IntOp.andi_eq_one.1 h5
  obtain ⟨h3, h17⟩ := IntOp.andi_eq_one.1 h4
  obtain ⟨h2, h12⟩ := IntOp.andi_eq_one.1 h3
  obtain ⟨_, h7⟩ := IntOp.andi_eq_one.1 h2
  exact ⟨real_of_all_finite a3 _ _ _ h7, real_of_all_finite a4 _ _ _ h12, real_of_all_finite a5 _ _ _ h17⟩

end Cert.FiniteArgs
-- ==== Proof.lean ====
/- The certificate's five claims.

   The kernel sums `1 / (1 + |x_R - x_C|^2)` over all pairs of the 16384 embedded points `x = eps * exp(lv / 2) + mu`,
   tile by tile into a one-element accumulator that is reset at the first tile and copied out at the last; the host lines
   around it turn that sum into the loss. The reference computes the squared distances by the Gram form
   `max(|x_R|^2 + |x_C|^2 - 2 <x_R, x_C>, 0)` and sums the whole square at once.

   Frames: each kernel program runs to the end and leaves its arguments alone (the region's run, tile by tile, then the
   later host lines, none of which writes an argument); the reference's frame is its run with the result dropped.
   The idealization rewrote nothing, so `preserves` is trivial. At the ideal instance the two results agree: both are
   one function of the pair sum, the divergence term and the arguments; the embedding is real because the inputs are
   finite, so the Gram form is the squared distance (a sum of squares, never negative, so the `max` is the identity),
   and a sum of extended reals does not depend on how it is tiled or ordered. -/
import proofs.«134232_j81690277970638_1_alg».proof.Defs
import proofs.«134232_j81690277970638_1_alg».proof.Proof.Gen.Kernel
import proofs.«134232_j81690277970638_1_alg».proof.Proof.Gen.KernelIdeal
import proofs.«134232_j81690277970638_1_alg».proof.Proof.Gen.ReferenceIdeal
import proofs.«134232_j81690277970638_1_alg».proof.Proof.Gen.Pre_finite_inputs
import proofs.«134232_j81690277970638_1_alg».proof.Proof.Gen.ReferenceIdeal.Run
import proofs.«134232_j81690277970638_1_alg».proof.Proof.Gen.ReferenceIdeal.Read
import proofs.«134232_j81690277970638_1_alg».proof.Proof.KernelFrame
import proofs.«134232_j81690277970638_1_alg».proof.Proof.KernelIdealResult
import proofs.«134232_j81690277970638_1_alg».proof.Proof.FiniteArgs
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both idealized programs end, from memories agreeing on the arguments, with the same loss. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m)
      [Cert.KernelIdeal.Gen.hostOps1] c Cert.KernelIdeal.main_v86, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  have hargs := Cert.FiniteArgs.args_real _ _ _ _ _ _ _ _ (hpre c)
  have hfin := Cert.ReferenceIdeal.RefValue.x_real _ _ _ hargs.1 hargs.2.1 hargs.2.2
  rw [Cert.ReferenceIdeal.Read.val_main_v102_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Hand.result_eq m c hfin).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
